-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S16384x1024 : Shape := ⟨2, ![16384, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S16384x1024, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S8x2048x1024, .bf16⟩
  | .hbm, ⟨16, _⟩ => ⟨S8x2048x1024, .bf16⟩
  | .hbm, ⟨17, _⟩ => ⟨S8x2048x1024, .bf16⟩
  | .hbm, ⟨18, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x512x1024, .f32⟩
  | .local _ .vmem, ⟨17, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S1024x1024_S1024x3072_S1024x3072_1_0_0_1_n_n_wf : DotDims.WF S1024x1024 S1024x3072 S1024x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KR0Defs.lean ====
/-
  The projection region, at the contents `V` its arrays hold when the region is entered: a window's block at a grid
  point, what the body leaves in each output window's staging buffer (its one whole-block store, as a function of
  the three input blocks), and the pipeline's proof data built from them.
-/
import proofs.«125617_j48481590837426_2_alg».proof.Proof.Gen.Kernel.Launch
import proofs.«125617_j48481590837426_2_alg».proof.Proof.Gen.Kernel.Skeleton
import proofs.«125617_j48481590837426_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_a : Rect S1024x1024 := Rect.unit (s := S1024x1024) ![0, 0] S1024x1024.size inb_S1024x1024_S1024x1024_0_0
abbrev r0_b : Rect S1024x3072 := Rect.unit (s := S1024x3072) ![0, 0] S1024x3072.size inb_S1024x3072_S1024x3072_0_0
abbrev r0_c : Rect S1x3072 := Rect.unit (s := S1x3072) ![0, 0] S1x3072.size inb_S1x3072_S1x3072_0_0

/-- The query output's staging buffer after the body: columns 0–1023 of `x·W + bias`. -/
def out0_3 (x0 : Vec F S1024x1024 .f32) (x1 : Vec F S1024x3072 .bf16) (x2 : Vec F S1x3072 .f32) : Vec F S1024x1024 .bf16 :=
  View.canon [⟨r0_a, k0_pay2 (View.ld x0 r0_a) (View.ld x1 r0_b) (View.ld x2 r0_c)⟩]
/-- The key output's: columns 1024–2047. -/
def out0_4 (x0 : Vec F S1024x1024 .f32) (x1 : Vec F S1024x3072 .bf16) (x2 : Vec F S1x3072 .f32) : Vec F S1024x1024 .bf16 :=
  View.canon [⟨r0_a, k0_pay3 (View.ld x0 r0_a) (View.ld x1 r0_b) (View.ld x2 r0_c)⟩]
/-- The value output's: columns 2048–3071. -/
def out0_5 (x0 : Vec F S1024x1024 .f32) (x1 : Vec F S1024x3072 .bf16) (x2 : Vec F S1x3072 .f32) : Vec F S1024x1024 .bf16 :=
  View.canon [⟨r0_a, k0_pay4 (View.ld x0 r0_a) (View.ld x1 r0_b) (View.ld x2 r0_c)⟩]

/-- One whole-block store covers the buffer. -/
theorem cover0 (p0 : Vec F S1024x1024 .bf16) (y : S1024x1024.Idx) :
    ∃ pc ∈ ([⟨r0_a, p0⟩] : List (View.Piece (Elt F) S1024x1024 .bf16)), y ∈ pc.1.set :=
  View.cover_of_tiled [⟨r0_a, p0⟩] S1024x1024.size (by rfl) y

/-- The proof data of the projection pipeline on core `c`: the arrays as the region finds them; after the body at
    point `t` each input's buffer at its block and each output's at its function of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

end Cert.Kernel.Frm

end
-- ==== Proof.KR1Defs.lean ====
/-
  The attention region, at the contents `V` its arrays hold when the region is entered: a window's block at a grid
  point, what the body leaves in the output window's staging buffer (its one whole-block store, as a function of the
  query, key and value blocks), and the pipeline's proof data built from them.
-/
import proofs.«125617_j48481590837426_2_alg».proof.Proof.Gen.Kernel.Launch
import proofs.«125617_j48481590837426_2_alg».proof.Proof.Gen.Kernel.Skeleton
import proofs.«125617_j48481590837426_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0

/-- The output's staging buffer after the body: the attention of the query block over the whole key and value blocks. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_k) (View.ld x2 r1_k)⟩]

/-- One whole-block store covers the buffer. -/
theorem cover1 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

/-- The proof data of the attention pipeline on core `c`: the arrays as the region finds them; after the body at
    point `t` each input's buffer at its block and the output's at its function of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Frm

end
-- ==== Proof.KRunDefs.lean ====
/-
  The buffer contents at each boundary of the main function's four segments, folded from the launch memory: the host
  operations before the projection region, that region's arrays at what its write-backs leave, the three reshapes,
  the attention region's arrays at what its write-backs leave; and every pipeline's proof data at its region's entry
  contents.
-/
import proofs.«125617_j48481590837426_2_alg».proof.Proof.KR0Defs
import proofs.«125617_j48481590837426_2_alg».proof.Proof.KR1Defs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the host operations before the projection region. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.Kernel.Frm

end
-- ==== Proof.KR0Body.lean ====
/-
  The projection region's body, at any grid point. Each of the three input windows' staging buffers holds that
  window's block there (whether or not the pipeline copied it in at that very point: an input that is not fetched again
  has not moved). The body reads the three blocks, reads (and ignores) what the three output buffers held, and
  overwrites each output buffer whole with its third of the columns of `x·W + bias`; so it meets the pipeline's
  body obligation with the proof data `dat0`.
-/
import proofs.«125617_j48481590837426_2_alg».proof.Proof.KR0Defs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The activations' staging buffer (window 0) holds the activations' block at every point. The body leaves an
    input's block where it found it, so a point that does not fetch still sees the block of the point before, which
    has the same block index. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights' staging buffer (window 1), fetched at the first point only, holds the one weights' block throughout. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias' staging buffer (window 2), likewise. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's triple -/

set_option maxHeartbeats 1000000 in
/-- The projection body on six whole staging memrefs: the three inputs' reading `x0`, `x1`, `x2`, the three outputs'
    holding anything. It loads the three inputs, loads each output's old contents (a value nothing reads), and stores
    over each output whole; so it reaches any continuation that takes the inputs back unchanged and the outputs at
    `out0_3`, `out0_4`, `out0_5` of the inputs. The grid coordinate `i` is not read. A whole-buffer store covers the
    buffer, so what it held before does not show. -/
theorem sound_kernel0 (c : Dev nD) (E : Set ℕ) (i : grid0.Coords)
    (a1 : Memref sig .tc .vmem S1024x1024 .f32) (h1 : a1.IsWhole) (a2 : Memref sig .tc .vmem S1024x3072 .bf16) (h2 : a2.IsWhole)
    (a3 : Memref sig .tc .vmem S1x3072 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (x0 : Vec F S1024x1024 .f32) (x1 : Vec F S1024x3072 .bf16) (x2 : Vec F S1x3072 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1 x2) ∗ owns (c : Thread nD τ) a5 fullShare (out0_4 x0 x1 x2)
            ∗ owns (c : Thread nD τ) a6 fullShare (out0_5 x0 x1 x2)) -∗ K ⟨⟩))
      ⊢ wp frame (wpE (defs₀ (F := F)) Variants.none c none) E (cc0__proj_kernel i a1 h1 a2 h2 a3 h3 a4 h4 a5 h5 a6 h6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The body obligation -/

/-- What the pipeline hands the body at point `t`: its invariant, what the core owes, and each window's current staging
    buffer, the windows written out one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it takes back: the same at the next point, every buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at point `t` takes the one to the other: the inputs' buffers hold their blocks (`before0_0` … `before0_2`),
    so the triple applies at those blocks; the invariant and the dues are constant in the point and pass by untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation for the projection region, at every point: the obligation's conjunction
    over the six windows written out is `bodyPre0` / `bodyPost0`. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KR1Body.lean ====
/-
  The attention region's body, at any grid point. Each of the three input windows' staging buffers holds that
  window's block there (whether or not the pipeline copied it in at that very point: an input that is not fetched again
  has not moved). The body reads the query, key and value blocks, reads (and ignores) what the output buffer held, and
  overwrites the output buffer whole with the attention of the query block over the keys and values; so it meets the
  pipeline's body obligation with the proof data `dat1`.
-/
import proofs.«125617_j48481590837426_2_alg».proof.Proof.KR1Defs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The query window's staging buffer (window 0) holds the query block of the point, at every point. The body leaves
    an input's block where it found it, so a point that does not fetch still sees the block of the point before, which
    has the same block index. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The key window's staging buffer (window 1), fetched once per batch entry (every fourth point), holds that entry's
    keys at all four of its points. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The value window's staging buffer (window 2), likewise. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The attention body on four whole staging memrefs: the query's, keys' and values' reading `x0`, `x1`, `x2`, the
    output's holding anything. It loads the three inputs, loads the output's old contents (a value nothing reads), and
    stores over the output whole; so it reaches any continuation that takes the inputs back unchanged and the output at
    `out1_3` of the inputs. The two grid coordinates `i` are not read. A whole-buffer store covers the buffer, so what
    it held before does not show. -/
theorem sound_kernel1 (c : Dev nD) (E : Set ℕ) (i : grid1.Coords)
    (a2 : Memref sig .tc .vmem S1x512x1024 .bf16) (h2 : a2.IsWhole) (a3 : Memref sig .tc .vmem S1x2048x1024 .bf16) (h3 : a3.IsWhole)
    (a4 : Memref sig .tc .vmem S1x2048x1024 .bf16) (h4 : a4.IsWhole) (a5 : Memref sig .tc .vmem S1x512x1024 .f32) (h5 : a5.IsWhole)
    (x0 : Vec F S1x512x1024 .bf16) (x1 : Vec F S1x2048x1024 .bf16) (x2 : Vec F S1x2048x1024 .bf16) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d)
        ∗ (iprop(owns (c : Thread nD τ) a2 fullShare x0 ∗ owns (c : Thread nD τ) a3 fullShare x1 ∗ owns (c : Thread nD τ) a4 fullShare x2
            ∗ owns (c : Thread nD τ) a5 fullShare (out1_3 x0 x1 x2)) -∗ K ⟨⟩))
      ⊢ wp frame (wpE (defs₀ (F := F)) Variants.none c none) E (cc1__attn_kernel i a2 h2 a3 h3 a4 h4 a5 h5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The body obligation -/

/-- What the pipeline hands the body at point `t`: its invariant, what the core owes, and each window's current staging
    buffer, the windows written out one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same at the next point, every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at point `t` takes the one to the other: the inputs' buffers hold their blocks (`before1_0` … `before1_2`),
    so the triple applies at those blocks; the invariant and the dues are constant in the point and pass by untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for the attention region, at every point: the obligation's conjunction
    over the four windows written out is `bodyPre1` / `bodyPost1`. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KRun.lean ====
/-
  The frame of the two-region program. The main function is four segments in order: the host operations that build the
  projection's operands, the projection region, the three reshapes, the attention region. Between segments a core
  holds every unscoped buffer whole at the contents the fold `W0` … `W4` gives, beside its generator register and its
  (empty) dues. A host stretch takes the contents at its entry to `StableHlo.after` of them; a region takes its arrays
  out of the unscoped buffers, runs its pipeline under the body obligation, and puts them back at what the write-backs
  left. So every weakly fair execution from a memory with zero counters terminates with every unscoped buffer at
  `W4` (`run_all`); no host operation and no region writes an argument array, so the seven arguments end as launched
  (`frame`).
-/
import proofs.«125617_j48481590837426_2_alg».proof.Proof.KRunDefs
import proofs.«125617_j48481590837426_2_alg».proof.Proof.KR0Body
import proofs.«125617_j48481590837426_2_alg».proof.Proof.KR1Body
import proofs.«125617_j48481590837426_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a core holds between segments -/

abbrev 𝒱₀ : Variants := Variants.none
/-- No core owes any other anything, so no level is assigned anywhere. -/
abbrev L : GSem nD τ sig → Finset Unit := fun _ => ∅
abbrev lv : GSem nD τ sig → Unit → ℕ := fun _ _ => 0
/-- Beside the buffers: the core's generator register in some state (a region's invariant borrows it and returns it)
    and the core's dues, which are nothing. -/
abbrev R (c : Dev nD) : sProp 𝕄 := iprop((∃ r, prngReg c r) ∗ ∃ W, owes (c : Thread nD τ) (0 : CellTallies nD τ sig Unit) W)

/-- A stretch of host operations as a segment: from every unscoped buffer at the contents `W` to every unscoped buffer
    at `StableHlo.after ops` of them, `R` carried along. The operations touch TensorCore buffers only and allocate
    none. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore buffer that is not scoped is one of the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the end, apart from its dues: every unscoped buffer at `W4`, the generator register. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The projection region: entered with every unscoped buffer at `W1`, left with every unscoped buffer at `W2`. At the
    entry its six arrays are taken out of the unscoped buffers and the other unscoped buffers set aside; the generator
    register goes into the pipeline's invariant and comes back out; at the exit the arrays, now at what the
    write-backs left, rejoin the buffers set aside. The kernel has no semaphore of its own and nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W3`, left with every unscoped buffer at `W4`, the
    generator register and the empty dues beside them — the state the run ends in. Its four arrays leave and rejoin
    the unscoped buffers as the projection's do. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as its segments, and the launch -/

/-- The four segments in the main function's order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

/-- The main function is the run of the four segments. -/
theorem main_run (c : Dev nD) : main (F := F) c = Pipeline.Seg.run (segs m) :=
  main_segs adm (pdats m) () 𝒱₀ L lv _ _ (reg0 m) (reg1 m) rfl rfl c

set_option backward.isDefEq.respectTransparency.types false in
/-- From any memory `m` with every semaphore counter at zero, every weakly fair execution of the main function on the
    TensorCores terminates without fault, and in every final memory each unscoped buffer of each core holds `W4 m c`
    of it: the segments run in order from the launch's holdings, and the last thread state, held beside a final
    state, says what that state's memory holds. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-! ## The arguments end as launched

No argument array is a window's array of either region, and no host operation writes one; so the fold, read at an
argument, walks back unchanged to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- THE FRAME, at any float model: from any memory with zero counters the main function terminates without fault on every
    weakly fair execution, and each of its seven argument arrays ends holding what it held at launch — `run_all` read at
    the arguments, which are unscoped TensorCore buffers. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs (onTc (τ := τ) (main (F := F))) ⟨m, fun _ => 0, ρ⟩).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Frm

end
-- ==== Proof.R0Defs.lean ====
/-
  The projection region, at the contents `V` its arrays hold when the region is entered: a window's block at a grid
  point, what the body leaves in each output window's staging buffer (its one whole-block store, as a function of
  the three input blocks), and the pipeline's proof data built from them.
-/
import proofs.«125617_j48481590837426_2_alg».proof.Proof.Gen.KernelIdeal.Launch
import proofs.«125617_j48481590837426_2_alg».proof.Proof.Gen.KernelIdeal.Skeleton
import proofs.«125617_j48481590837426_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_a : Rect S1024x1024 := Rect.unit (s := S1024x1024) ![0, 0] S1024x1024.size inb_S1024x1024_S1024x1024_0_0
abbrev r0_b : Rect S1024x3072 := Rect.unit (s := S1024x3072) ![0, 0] S1024x3072.size inb_S1024x3072_S1024x3072_0_0
abbrev r0_c : Rect S1x3072 := Rect.unit (s := S1x3072) ![0, 0] S1x3072.size inb_S1x3072_S1x3072_0_0

/-- The query output's staging buffer after the body: columns 0–1023 of `x·W + bias`. -/
def out0_3 (x0 : Vec F S1024x1024 .f32) (x1 : Vec F S1024x3072 .bf16) (x2 : Vec F S1x3072 .f32) : Vec F S1024x1024 .bf16 :=
  View.canon [⟨r0_a, k0_pay2 (View.ld x0 r0_a) (View.ld x1 r0_b) (View.ld x2 r0_c)⟩]
/-- The key output's: columns 1024–2047. -/
def out0_4 (x0 : Vec F S1024x1024 .f32) (x1 : Vec F S1024x3072 .bf16) (x2 : Vec F S1x3072 .f32) : Vec F S1024x1024 .bf16 :=
  View.canon [⟨r0_a, k0_pay3 (View.ld x0 r0_a) (View.ld x1 r0_b) (View.ld x2 r0_c)⟩]
/-- The value output's: columns 2048–3071. -/
def out0_5 (x0 : Vec F S1024x1024 .f32) (x1 : Vec F S1024x3072 .bf16) (x2 : Vec F S1x3072 .f32) : Vec F S1024x1024 .bf16 :=
  View.canon [⟨r0_a, k0_pay4 (View.ld x0 r0_a) (View.ld x1 r0_b) (View.ld x2 r0_c)⟩]

/-- One whole-block store covers the buffer. -/
theorem cover0 (p0 : Vec F S1024x1024 .bf16) (y : S1024x1024.Idx) :
    ∃ pc ∈ ([⟨r0_a, p0⟩] : List (View.Piece (Elt F) S1024x1024 .bf16)), y ∈ pc.1.set :=
  View.cover_of_tiled [⟨r0_a, p0⟩] S1024x1024.size (by rfl) y

/-- The proof data of the projection pipeline on core `c`: the arrays as the region finds them; after the body at
    point `t` each input's buffer at its block and each output's at its function of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

end Cert.KernelIdeal.Frm

end
-- ==== Proof.R1Defs.lean ====
/-
  The attention region, at the contents `V` its arrays hold when the region is entered: a window's block at a grid
  point, what the body leaves in the output window's staging buffer (its one whole-block store, as a function of the
  query, key and value blocks), and the pipeline's proof data built from them.
-/
import proofs.«125617_j48481590837426_2_alg».proof.Proof.Gen.KernelIdeal.Launch
import proofs.«125617_j48481590837426_2_alg».proof.Proof.Gen.KernelIdeal.Skeleton
import proofs.«125617_j48481590837426_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0

/-- The output's staging buffer after the body: the attention of the query block over the whole key and value blocks. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_k) (View.ld x2 r1_k)⟩]

/-- One whole-block store covers the buffer. -/
theorem cover1 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

/-- The proof data of the attention pipeline on core `c`: the arrays as the region finds them; after the body at
    point `t` each input's buffer at its block and the output's at its function of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Frm

end
-- ==== Proof.RunDefs.lean ====
/-
  The buffer contents at each boundary of the main function's four segments, folded from the launch memory: the host
  operations before the projection region, that region's arrays at what its write-backs leave, the three reshapes,
  the attention region's arrays at what its write-backs leave; and every pipeline's proof data at its region's entry
  contents.
-/
import proofs.«125617_j48481590837426_2_alg».proof.Proof.R0Defs
import proofs.«125617_j48481590837426_2_alg».proof.Proof.R1Defs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the host operations before the projection region. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.KernelIdeal.Frm

end
-- ==== Proof.R0Body.lean ====
/-
  The projection region's body, at any grid point. Each of the three input windows' staging buffers holds that
  window's block there (whether or not the pipeline copied it in at that very point: an input that is not fetched again
  has not moved). The body reads the three blocks, reads (and ignores) what the three output buffers held, and
  overwrites each output buffer whole with its third of the columns of `x·W + bias`; so it meets the pipeline's
  body obligation with the proof data `dat0`.
-/
import proofs.«125617_j48481590837426_2_alg».proof.Proof.R0Defs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The activations' staging buffer (window 0) holds the activations' block at every point. The body leaves an
    input's block where it found it, so a point that does not fetch still sees the block of the point before, which
    has the same block index. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights' staging buffer (window 1), fetched at the first point only, holds the one weights' block throughout. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias' staging buffer (window 2), likewise. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's triple -/

set_option maxHeartbeats 1000000 in
/-- The projection body on six whole staging memrefs: the three inputs' reading `x0`, `x1`, `x2`, the three outputs'
    holding anything. It loads the three inputs, loads each output's old contents (a value nothing reads), and stores
    over each output whole; so it reaches any continuation that takes the inputs back unchanged and the outputs at
    `out0_3`, `out0_4`, `out0_5` of the inputs. The grid coordinate `i` is not read. A whole-buffer store covers the
    buffer, so what it held before does not show. -/
theorem sound_kernel0 (c : Dev nD) (E : Set ℕ) (i : grid0.Coords)
    (a1 : Memref sig .tc .vmem S1024x1024 .f32) (h1 : a1.IsWhole) (a2 : Memref sig .tc .vmem S1024x3072 .bf16) (h2 : a2.IsWhole)
    (a3 : Memref sig .tc .vmem S1x3072 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (x0 : Vec F S1024x1024 .f32) (x1 : Vec F S1024x3072 .bf16) (x2 : Vec F S1x3072 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1 x2) ∗ owns (c : Thread nD τ) a5 fullShare (out0_4 x0 x1 x2)
            ∗ owns (c : Thread nD τ) a6 fullShare (out0_5 x0 x1 x2)) -∗ K ⟨⟩))
      ⊢ wp frame (wpE (defs₀ (F := F)) Variants.none c none) E (cc0__proj_kernel i a1 h1 a2 h2 a3 h3 a4 h4 a5 h5 a6 h6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The body obligation -/

/-- What the pipeline hands the body at point `t`: its invariant, what the core owes, and each window's current staging
    buffer, the windows written out one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it takes back: the same at the next point, every buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at point `t` takes the one to the other: the inputs' buffers hold their blocks (`before0_0` … `before0_2`),
    so the triple applies at those blocks; the invariant and the dues are constant in the point and pass by untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation for the projection region, at every point: the obligation's conjunction
    over the six windows written out is `bodyPre0` / `bodyPost0`. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.R1Body.lean ====
/-
  The attention region's body, at any grid point. Each of the three input windows' staging buffers holds that
  window's block there (whether or not the pipeline copied it in at that very point: an input that is not fetched again
  has not moved). The body reads the query, key and value blocks, reads (and ignores) what the output buffer held, and
  overwrites the output buffer whole with the attention of the query block over the keys and values; so it meets the
  pipeline's body obligation with the proof data `dat1`.
-/
import proofs.«125617_j48481590837426_2_alg».proof.Proof.R1Defs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- The query window's staging buffer (window 0) holds the query block of the point, at every point. The body leaves
    an input's block where it found it, so a point that does not fetch still sees the block of the point before, which
    has the same block index. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The key window's staging buffer (window 1), fetched once per batch entry (every fourth point), holds that entry's
    keys at all four of its points. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The value window's staging buffer (window 2), likewise. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The attention body on four whole staging memrefs: the query's, keys' and values' reading `x0`, `x1`, `x2`, the
    output's holding anything. It loads the three inputs, loads the output's old contents (a value nothing reads), and
    stores over the output whole; so it reaches any continuation that takes the inputs back unchanged and the output at
    `out1_3` of the inputs. The two grid coordinates `i` are not read. A whole-buffer store covers the buffer, so what
    it held before does not show. -/
theorem sound_kernel1 (c : Dev nD) (E : Set ℕ) (i : grid1.Coords)
    (a2 : Memref sig .tc .vmem S1x512x1024 .bf16) (h2 : a2.IsWhole) (a3 : Memref sig .tc .vmem S1x2048x1024 .bf16) (h3 : a3.IsWhole)
    (a4 : Memref sig .tc .vmem S1x2048x1024 .bf16) (h4 : a4.IsWhole) (a5 : Memref sig .tc .vmem S1x512x1024 .f32) (h5 : a5.IsWhole)
    (x0 : Vec F S1x512x1024 .bf16) (x1 : Vec F S1x2048x1024 .bf16) (x2 : Vec F S1x2048x1024 .bf16) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d)
        ∗ (iprop(owns (c : Thread nD τ) a2 fullShare x0 ∗ owns (c : Thread nD τ) a3 fullShare x1 ∗ owns (c : Thread nD τ) a4 fullShare x2
            ∗ owns (c : Thread nD τ) a5 fullShare (out1_3 x0 x1 x2)) -∗ K ⟨⟩))
      ⊢ wp frame (wpE (defs₀ (F := F)) Variants.none c none) E (cc1__attn_kernel i a2 h2 a3 h3 a4 h4 a5 h5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The body obligation -/

/-- What the pipeline hands the body at point `t`: its invariant, what the core owes, and each window's current staging
    buffer, the windows written out one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same at the next point, every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at point `t` takes the one to the other: the inputs' buffers hold their blocks (`before1_0` … `before1_2`),
    so the triple applies at those blocks; the invariant and the dues are constant in the point and pass by untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for the attention region, at every point: the obligation's conjunction
    over the four windows written out is `bodyPre1` / `bodyPost1`. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.Run.lean ====
/-
  The frame of the two-region program. The main function is four segments in order: the host operations that build the
  projection's operands, the projection region, the three reshapes, the attention region. Between segments a core
  holds every unscoped buffer whole at the contents the fold `W0` … `W4` gives, beside its generator register and its
  (empty) dues. A host stretch takes the contents at its entry to `StableHlo.after` of them; a region takes its arrays
  out of the unscoped buffers, runs its pipeline under the body obligation, and puts them back at what the write-backs
  left. So every weakly fair execution from a memory with zero counters terminates with every unscoped buffer at
  `W4` (`run_all`); no host operation and no region writes an argument array, so the seven arguments end as launched
  (`frame`).
-/
import proofs.«125617_j48481590837426_2_alg».proof.Proof.RunDefs
import proofs.«125617_j48481590837426_2_alg».proof.Proof.R0Body
import proofs.«125617_j48481590837426_2_alg».proof.Proof.R1Body
import proofs.«125617_j48481590837426_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a core holds between segments -/

abbrev 𝒱₀ : Variants := Variants.none
/-- No core owes any other anything, so no level is assigned anywhere. -/
abbrev L : GSem nD τ sig → Finset Unit := fun _ => ∅
abbrev lv : GSem nD τ sig → Unit → ℕ := fun _ _ => 0
/-- Beside the buffers: the core's generator register in some state (a region's invariant borrows it and returns it)
    and the core's dues, which are nothing. -/
abbrev R (c : Dev nD) : sProp 𝕄 := iprop((∃ r, prngReg c r) ∗ ∃ W, owes (c : Thread nD τ) (0 : CellTallies nD τ sig Unit) W)

/-- A stretch of host operations as a segment: from every unscoped buffer at the contents `W` to every unscoped buffer
    at `StableHlo.after ops` of them, `R` carried along. The operations touch TensorCore buffers only and allocate
    none. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore buffer that is not scoped is one of the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the end, apart from its dues: every unscoped buffer at `W4`, the generator register. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The projection region: entered with every unscoped buffer at `W1`, left with every unscoped buffer at `W2`. At the
    entry its six arrays are taken out of the unscoped buffers and the other unscoped buffers set aside; the generator
    register goes into the pipeline's invariant and comes back out; at the exit the arrays, now at what the
    write-backs left, rejoin the buffers set aside. The kernel has no semaphore of its own and nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W3`, left with every unscoped buffer at `W4`, the
    generator register and the empty dues beside them — the state the run ends in. Its four arrays leave and rejoin
    the unscoped buffers as the projection's do. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as its segments, and the launch -/

/-- The four segments in the main function's order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

/-- The main function is the run of the four segments. -/
theorem main_run (c : Dev nD) : main (F := F) c = Pipeline.Seg.run (segs m) :=
  main_segs adm (pdats m) () 𝒱₀ L lv _ _ (reg0 m) (reg1 m) rfl rfl c

set_option backward.isDefEq.respectTransparency.types false in
/-- From any memory `m` with every semaphore counter at zero, every weakly fair execution of the main function on the
    TensorCores terminates without fault, and in every final memory each unscoped buffer of each core holds `W4 m c`
    of it: the segments run in order from the launch's holdings, and the last thread state, held beside a final
    state, says what that state's memory holds. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-! ## The arguments end as launched

No argument array is a window's array of either region, and no host operation writes one; so the fold, read at an
argument, walks back unchanged to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- THE FRAME, at any float model: from any memory with zero counters the main function terminates without fault on every
    weakly fair execution, and each of its seven argument arrays ends holding what it held at launch — `run_all` read at
    the arguments, which are unscoped TensorCore buffers. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs (onTc (τ := τ) (main (F := F))) ⟨m, fun _ => 0, ρ⟩).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Frm

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.ProjBody.lean ====
/-
  The projection kernel's body, read at an index, on the extended reals.

  From a block `x : [1024, 1024]` of rows, the joined weights `w : [1024, 3072]` and the joined bias row
  `b : [1, 3072]` the body forms `acc[r, c] = (∑ d, x[r,d] · w[d,c]) + b[0,c]` and stores its three column thirds:
  columns `o + h` for `o = 0, 1024, 2048`. Roundings are the identity here, so each stored entry is the accumulator's.
-/
import proofs.«125617_j48481590837426_2_alg».proof.Proof.Gen.KernelIdeal.Skeleton
import proofs.«125617_j48481590837426_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjBody

open Idealize.ShloMosaic Idealize.ShloMosaic.ValueIdx Cert.KernelIdeal Cert.KernelIdeal.Gen

/-- The printed dimension record of the body's product is the plain one. -/
theorem dot_eq : dot_S1024x1024_S1024x3072_S1024x3072_1_0_0_1_n_n = DotDims.plain 1024 1024 3072 := rfl

/-- The accumulator at `(r, c)`: the row of `x` against the column of `w`, plus the bias entry of that column. -/
theorem acc_apply (x : FVec Ideal S1024x1024 .f32) (w : FVec Ideal S1024x3072 .bf16) (b : FVec Ideal S1x3072 .f32)
    (r : Fin 1024) (c : Fin 3072) :
    k0_pay1 (F := Ideal) x w b (ix2 r c) = (∑ d : Fin 1024, x (ix2 r d) * w (ix2 d c)) + b (ix2 (0 : Fin 1) c) := by
  unfold k0_pay1
  refine (addf_apply _ _ _).trans ?_
  refine congrArg₂ (· + ·) ?_ ?_
  · rw [shapeCast_self, shapeCast_self]
    refine (congrFun (Cert.Lib.PlainDot.matmul_zero_eq _ dot_eq none _ _) (ix2 r c)).trans ?_
    rfl
  · rw [shapeCast_self]
    exact broadcastTo_1b_ab_apply b _ r c

/-- A rounding to the narrower format is the identity on the extended reals. -/
theorem trunc_at {s : Shape} (a : FVec Ideal s .f32) (hb : FTy.bf16.bits < FTy.f32.bits) (i : s.Idx) :
    (truncf .bf16 a hb : FVec Ideal s .bf16) i = a i := rfl

/-- The stored third at column offset `o`: entry `(r, h)` is the accumulator's entry `(r, o + h)`. -/
theorem q_apply (x : FVec Ideal S1024x1024 .f32) (w : FVec Ideal S1024x3072 .bf16) (b : FVec Ideal S1x3072 .f32)
    (r : Fin 1024) (h : Fin 1024) (c : Fin 3072) (hc : c.val = 0 + h.val) :
    k0_pay2 (F := Ideal) x w b (ix2 r h) = (∑ d : Fin 1024, x (ix2 r d) * w (ix2 d c)) + b (ix2 (0 : Fin 1) c) := by
  unfold k0_pay2
  refine (trunc_at _ _ _).trans ?_
  refine (slice2_axis1_apply 0 _ _ r h c hc).trans ?_
  exact acc_apply x w b r c

theorem k_apply (x : FVec Ideal S1024x1024 .f32) (w : FVec Ideal S1024x3072 .bf16) (b : FVec Ideal S1x3072 .f32)
    (r : Fin 1024) (h : Fin 1024) (c : Fin 3072) (hc : c.val = 1024 + h.val) :
    k0_pay3 (F := Ideal) x w b (ix2 r h) = (∑ d : Fin 1024, x (ix2 r d) * w (ix2 d c)) + b (ix2 (0 : Fin 1) c) := by
  unfold k0_pay3
  refine (trunc_at _ _ _).trans ?_
  refine (slice2_axis1_apply 1024 _ _ r h c hc).trans ?_
  exact acc_apply x w b r c

theorem v_apply (x : FVec Ideal S1024x1024 .f32) (w : FVec Ideal S1024x3072 .bf16) (b : FVec Ideal S1x3072 .f32)
    (r : Fin 1024) (h : Fin 1024) (c : Fin 3072) (hc : c.val = 2048 + h.val) :
    k0_pay4 (F := Ideal) x w b (ix2 r h) = (∑ d : Fin 1024, x (ix2 r d) * w (ix2 d c)) + b (ix2 (0 : Fin 1) c) := by
  unfold k0_pay4
  refine (trunc_at _ _ _).trans ?_
  refine (slice2_axis1_apply 2048 _ _ r h c hc).trans ?_
  exact acc_apply x w b r c

end Cert.KernelIdeal.ProjBody

end
-- ==== Proof.ProjValue.lean ====
/-
  The projection region's three output arrays as whole-array functions of the arrays the region reads.

  The region cuts the `[16384, 1024]` input into sixteen blocks of 1024 rows; at block `t` the body forms
  `acc = x_t · W + bias` with the joined `[1024, 3072]` weights and `[1, 3072]` bias row, and writes the column thirds
  of `acc` back to rows `1024·t … 1024·t + 1023` of the three outputs. A row of a product depends only on that row of
  the left operand, so output `o` (offset `0`, `1024`, `2048`) ends at
  `(r, h) ↦ (∑ d, X[r,d] · W[d, o+h]) + bias[0, o+h]` for every row `r` of the whole input.
-/
import proofs.«125617_j48481590837426_2_alg».proof.Proof.R0Defs
import proofs.«125617_j48481590837426_2_alg».proof.Proof.ProjBody
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.KernelIdeal.Frm Idealize.ShloMosaic Idealize.ShloMosaic.TcCoe
open Idealize.ShloMosaic.ValueIdx Idealize.SL.Sem
open Idealize.ShloMosaic.Pipeline (Dat)

/-- The third at column offset `o` of `X · W + bias`, over the whole arrays. -/
def PG (o : ℕ) (ho : o + 1024 ≤ 3072) (X : S16384x1024.Idx → EReal) (Wc : S1024x3072.Idx → EReal) (Bc : S1x3072.Idx → EReal) :
    S16384x1024.Idx → EReal :=
  fun i => (∑ d : Fin 1024, X (ix2 (⟨(i 0).val, (i 0).isLt⟩ : Fin 16384) d)
      * Wc (ix2 d (⟨o + (i 1).val, by have h1 : (i 1).val < 1024 := (i 1).isLt; omega⟩ : Fin 3072)))
    + Bc (ix2 (0 : Fin 1) (⟨o + (i 1).val, by have h1 : (i 1).val < 1024 := (i 1).isLt; omega⟩ : Fin 3072))

theorem PG_ix2 (o : ℕ) (ho : o + 1024 ≤ 3072) (X : S16384x1024.Idx → EReal) (Wc : S1024x3072.Idx → EReal) (Bc : S1x3072.Idx → EReal)
    (R : Fin 16384) (h : Fin 1024) (cc : Fin 3072) (hc : cc.val = o + h.val) :
    PG o ho X Wc Bc (ix2 R h) = (∑ d : Fin 1024, X (ix2 R d) * Wc (ix2 d cc)) + Bc (ix2 (0 : Fin 1) cc) := by
  obtain ⟨v, hv⟩ := cc
  have e : v = o + h.val := hc
  subst e
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the sixteen grid points: the input rows and the three outputs move with the
    point along the first axis; the weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input block at point `t`, entry `(r, d)`, is the array's row `1024·t + r`. -/
theorem x_blk (c : Dev nD) (t : Fin cfg0.N) (r d : Fin 1024) (R : Fin 16384) (hR : R.val = t.val * 1024 + r.val) :
    (iblk0 V c 0 t : S1024x1024.Idx → EReal) (ix2 r d) = V c main_v4 (ix2 R d) := by
  obtain ⟨e0, e1, -⟩ := idx_facts t
  show V c main_v4 (((cfg0.win 0).blk t).view.emb (ix2 r d)) = V c main_v4 (ix2 R d)
  refine congrArg _ (funext fun a => Fin.ext ?_)
  match a with
  | ⟨0, _⟩ => show win0_0.index t (0 : Fin 2) * 1024 + 1 * r.val = R.val; omega
  | ⟨1, _⟩ => show win0_0.index t (1 : Fin 2) * 1024 + 1 * d.val = d.val; omega

/-- The weights' block is the whole array at every point. -/
theorem w_blk (c : Dev nD) (t : Fin cfg0.N) (d : Fin 1024) (cc : Fin 3072) :
    (iblk0 V c 1 t : S1024x3072.Idx → EReal) (ix2 d cc) = V c main_v1 (ix2 d cc) := by
  obtain ⟨-, -, e2, e3, -⟩ := idx_facts t
  show V c main_v1 (((cfg0.win 1).blk t).view.emb (ix2 d cc)) = V c main_v1 (ix2 d cc)
  refine congrArg _ (funext fun a => Fin.ext ?_)
  match a with
  | ⟨0, _⟩ => show win0_1.index t (0 : Fin 2) * 1024 + 1 * d.val = d.val; omega
  | ⟨1, _⟩ => show win0_1.index t (1 : Fin 2) * 3072 + 1 * cc.val = cc.val; omega

/-- The bias row's block is the whole array at every point. -/
theorem b_blk (c : Dev nD) (t : Fin cfg0.N) (cc : Fin 3072) :
    (iblk0 V c 2 t : S1x3072.Idx → EReal) (ix2 (0 : Fin 1) cc) = V c main_v3 (ix2 (0 : Fin 1) cc) := by
  obtain ⟨-, -, -, -, e4, e5, -⟩ := idx_facts t
  show V c main_v3 (((cfg0.win 2).blk t).view.emb (ix2 (0 : Fin 1) cc)) = V c main_v3 (ix2 (0 : Fin 1) cc)
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * cc.val = cc.val; omega

/-! ## Output window 3: columns 0 to 1023 of the accumulator -/

/-- What point `t` writes back to output window 3 is block `t` of the whole-array function. -/
theorem flushed3_eq (c : Dev nD) (t : Fin cfg0.N) :
    (dat0 V c).flushed 3 t = ((cfg0.win 3).blk t).view.read (Elt Ideal) (PG 0 (by norm_num) (V c main_v4) (V c main_v1) (V c main_v3)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1024x3072) hz, View.ld_unit_zero (S := S1x3072) hz]
  funext j
  obtain ⟨r, h, rfl⟩ : ∃ (r : Fin 1024) (h : Fin 1024), j = ix2 r h := ⟨j 0, j 1, eq_ix2 (n0 := 1024) (n1 := 1024) j⟩
  have ht : t.val < 16 := by have h16 : t.val < grid0.N := t.isLt; have hN : grid0.N = 16 := N_0; omega
  obtain ⟨e0, e1, e2, e3, e4, e5, e6, e7, e8, e9, e10, e11⟩ := idx_facts t
  refine (ProjBody.q_apply (iblk0 V c 0 t) (iblk0 V c 1 t) (iblk0 V c 2 t) r h ⟨0 + h.val, by have := h.isLt; omega⟩ rfl).trans ?_
  have hemb : ((cfg0.win 3).blk t).view.emb (ix2 r h) = ix2 (⟨t.val * 1024 + r.val, by have := r.isLt; omega⟩ : Fin 16384) h := by
    funext a; apply Fin.ext
    match a with
    | ⟨0, _⟩ => show win0_3.index t (0 : Fin 2) * 1024 + 1 * r.val = t.val * 1024 + r.val; omega
    | ⟨1, _⟩ => show win0_3.index t (1 : Fin 2) * 1024 + 1 * h.val = h.val; omega
  show _ = PG 0 (by norm_num) (V c main_v4) (V c main_v1) (V c main_v3) (((cfg0.win 3).blk t).view.emb (ix2 r h))
  rw [hemb, PG_ix2 0 (by norm_num) _ _ _ _ h ⟨0 + h.val, by have := h.isLt; omega⟩ rfl]
  exact congrArg₂ (· + ·) (Finset.sum_congr rfl fun d _ => congrArg₂ (· * ·) (x_blk V c t r d _ rfl) (w_blk V c t d _)) (b_blk V c t _)

/-- An index is in point `t`'s block iff each coordinate is in the block's range on its axis. -/
theorem mem_blk3 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5_0).slice (win0_3.rect t)).set ↔ _
  rw [View.set_slice_whole, Rect.mem_set_unit]
  exact Iff.rfl

/-- Row `r` lies in the block of point `r / 1024`: the sixteen row blocks tile the array. -/
theorem cover3 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : grid0.N = 16 := N_0
  have htl : (i 0).val / 1024 < cfg0.N := by show _ < grid0.N; omega
  refine ⟨⟨(i 0).val / 1024, htl⟩, flush0_3 _, ?_⟩
  rw [mem_blk3]
  obtain ⟨e0, e1, e2, e3, e4, e5, e6, e7, e8, e9, e10, e11⟩ := idx_facts ⟨(i 0).val / 1024, htl⟩
  intro a
  match a with
  | ⟨0, _⟩ => show win0_3.index ⟨(i 0).val / 1024, htl⟩ (0 : Fin 2) * 1024 ≤ (i 0).val ∧ (i 0).val < win0_3.index ⟨(i 0).val / 1024, htl⟩ (0 : Fin 2) * 1024 + 1024; have : (⟨(i 0).val / 1024, htl⟩ : Fin cfg0.N).val = (i 0).val / 1024 := rfl; omega
  | ⟨1, _⟩ => show win0_3.index ⟨(i 0).val / 1024, htl⟩ (1 : Fin 2) * 1024 ≤ (i 1).val ∧ (i 1).val < win0_3.index ⟨(i 0).val / 1024, htl⟩ (1 : Fin 2) * 1024 + 1024; omega

/-- The array after the region: the whole-array function. -/
theorem final3 (c : Dev nD) :
    (dat0 V c).arrAt 3 cfg0.N = PG 0 (by norm_num) (V c main_v4) (V c main_v1) (V c main_v3) :=
  (dat0 V c).arrAt_eq_of_cover 3 _ (fun t _ => flushed3_eq V c t) cover3

/-! ## Output window 4: columns 1024 to 2047 of the accumulator -/

/-- What point `t` writes back to output window 4 is block `t` of the whole-array function. -/
theorem flushed4_eq (c : Dev nD) (t : Fin cfg0.N) :
    (dat0 V c).flushed 4 t = ((cfg0.win 4).blk t).view.read (Elt Ideal) (PG 1024 (by norm_num) (V c main_v4) (V c main_v1) (V c main_v3)) := by
  show (cfg0.win 4).cut (grid0.coords t) ((dat0 V c).after 4 t) = _
  rw [after0_4]
  unfold out0_4
  rw [View.canon_unit_zero hz]
  simp only [View.ld_unit_zero (S := S1024x1024) hz, View.ld_unit_zero (S := S1024x3072) hz, View.ld_unit_zero (S := S1x3072) hz]
  funext j
  obtain ⟨r, h, rfl⟩ : ∃ (r : Fin 1024) (h : Fin 1024), j = ix2 r h := ⟨j 0, j 1, eq_ix2 (n0 := 1024) (n1 := 1024) j⟩
  have ht : t.val < 16 := by have h16 : t.val < grid0.N := t.isLt; have hN : grid0.N = 16 := N_0; omega
  obtain ⟨e0, e1, e2, e3, e4, e5, e6, e7, e8, e9, e10, e11⟩ := idx_facts t
  refine (ProjBody.k_apply (iblk0 V c 0 t) (iblk0 V c 1 t) (iblk0 V c 2 t) r h ⟨1024 + h.val, by have := h.isLt; omega⟩ rfl).trans ?_
  have hemb : ((cfg0.win 4).blk t).view.emb (ix2 r h) = ix2 (⟨t.val * 1024 + r.val, by have := r.isLt; omega⟩ : Fin 16384) h := by
    funext a; apply Fin.ext
    match a with
    | ⟨0, _⟩ => show win0_4.index t (0 : Fin 2) * 1024 + 1 * r.val = t.val * 1024 + r.val; omega
    | ⟨1, _⟩ => show win0_4.index t (1 : Fin 2) * 1024 + 1 * h.val = h.val; omega
  show _ = PG 1024 (by norm_num) (V c main_v4) (V c main_v1) (V c main_v3) (((cfg0.win 4).blk t).view.emb (ix2 r h))
  rw [hemb, PG_ix2 1024 (by norm_num) _ _ _ _ h ⟨1024 + h.val, by have := h.isLt; omega⟩ rfl]
  exact congrArg₂ (· + ·) (Finset.sum_congr rfl fun d _ => congrArg₂ (· * ·) (x_blk V c t r d _ rfl) (w_blk V c t d _)) (b_blk V c t _)

/-- An index is in point `t`'s block iff each coordinate is in the block's range on its axis. -/
theorem mem_blk4 (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5_1).slice (win0_4.rect t)).set ↔ _
  rw [View.set_slice_whole, Rect.mem_set_unit]
  exact Iff.rfl

/-- Row `r` lies in the block of point `r / 1024`: the sixteen row blocks tile the array. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hN : grid0.N = 16 := N_0
  have htl : (i 0).val / 1024 < cfg0.N := by show _ < grid0.N; omega
  refine ⟨⟨(i 0).val / 1024, htl⟩, flush0_4 _, ?_⟩
  rw [mem_blk4]
  obtain ⟨e0, e1, e2, e3, e4, e5, e6, e7, e8, e9, e10, e11⟩ := idx_facts ⟨(i 0).val / 1024, htl⟩
  intro a
  match a with
  | ⟨0, _⟩ => show win0_4.index ⟨(i 0).val / 1024, htl⟩ (0 : Fin 2) * 1024 ≤ (i 0).val ∧ (i 0).val < win0_4.index ⟨(i 0).val / 1024, htl⟩ (0 : Fin 2) * 1024 + 1024; have : (⟨(i 0).val / 1024, htl⟩ : Fin cfg0.N).val = (i 0).val / 1024 := rfl; omega
  | ⟨1, _⟩ => show win0_4.index ⟨(i 0).val / 1024, htl⟩ (1 : Fin 2) * 1024 ≤ (i 1).val ∧ (i 1).val < win0_4.index ⟨(i 0).val / 1024, htl⟩ (1 : Fin 2) * 1024 + 1024; omega

/-- The array after the region: the whole-array function. -/
theorem final4 (c : Dev nD) :
    (dat0 V c).arrAt 4 cfg0.N = PG 1024 (by norm_num) (V c main_v4) (V c main_v1) (V c main_v3) :=
  (dat0 V c).arrAt_eq_of_cover 4 _ (fun t _ => flushed4_eq V c t) cover4

/-! ## Output window 5: columns 2048 to 3071 of the accumulator -/

/-- What point `t` writes back to output window 5 is block `t` of the whole-array function. -/
theorem flushed5_eq (c : Dev nD) (t : Fin cfg0.N) :
    (dat0 V c).flushed 5 t = ((cfg0.win 5).blk t).view.read (Elt Ideal) (PG 2048 (by norm_num) (V c main_v4) (V c main_v1) (V c main_v3)) := by
  show (cfg0.win 5).cut (grid0.coords t) ((dat0 V c).after 5 t) = _
  rw [after0_5]
  unfold out0_5
  rw [View.canon_unit_zero hz]
  simp only [View.ld_unit_zero (S := S1024x1024) hz, View.ld_unit_zero (S := S1024x3072) hz, View.ld_unit_zero (S := S1x3072) hz]
  funext j
  obtain ⟨r, h, rfl⟩ : ∃ (r : Fin 1024) (h : Fin 1024), j = ix2 r h := ⟨j 0, j 1, eq_ix2 (n0 := 1024) (n1 := 1024) j⟩
  have ht : t.val < 16 := by have h16 : t.val < grid0.N := t.isLt; have hN : grid0.N = 16 := N_0; omega
  obtain ⟨e0, e1, e2, e3, e4, e5, e6, e7, e8, e9, e10, e11⟩ := idx_facts t
  refine (ProjBody.v_apply (iblk0 V c 0 t) (iblk0 V c 1 t) (iblk0 V c 2 t) r h ⟨2048 + h.val, by have := h.isLt; omega⟩ rfl).trans ?_
  have hemb : ((cfg0.win 5).blk t).view.emb (ix2 r h) = ix2 (⟨t.val * 1024 + r.val, by have := r.isLt; omega⟩ : Fin 16384) h := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * h.val = h.val; omega
  show _ = PG 2048 (by norm_num) (V c main_v4) (V c main_v1) (V c main_v3) (((cfg0.win 5).blk t).view.emb (ix2 r h))
  rw [hemb, PG_ix2 2048 (by norm_num) _ _ _ _ h ⟨2048 + h.val, by have := h.isLt; omega⟩ rfl]
  exact congrArg₂ (· + ·) (Finset.sum_congr rfl fun d _ => congrArg₂ (· * ·) (x_blk V c t r d _ rfl) (w_blk V c t d _)) (b_blk V c t _)

/-- An index is in point `t`'s block iff each coordinate is in the block's range on its axis. -/
theorem mem_blk5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v5_2).slice (win0_5.rect t)).set ↔ _
  rw [View.set_slice_whole, Rect.mem_set_unit]
  exact Iff.rfl

/-- Row `r` lies in the block of point `r / 1024`: the sixteen row blocks tile the array. -/
theorem cover5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : grid0.N = 16 := N_0
  have htl : (i 0).val / 1024 < cfg0.N := by show _ < grid0.N; omega
  refine ⟨⟨(i 0).val / 1024, htl⟩, flush0_5 _, ?_⟩
  rw [mem_blk5]
  obtain ⟨e0, e1, e2, e3, e4, e5, e6, e7, e8, e9, e10, e11⟩ := idx_facts ⟨(i 0).val / 1024, htl⟩
  intro a
  match a with
  | ⟨0, _⟩ => show win0_5.index ⟨(i 0).val / 1024, htl⟩ (0 : Fin 2) * 1024 ≤ (i 0).val ∧ (i 0).val < win0_5.index ⟨(i 0).val / 1024, htl⟩ (0 : Fin 2) * 1024 + 1024; have : (⟨(i 0).val / 1024, htl⟩ : Fin cfg0.N).val = (i 0).val / 1024 := rfl; omega
  | ⟨1, _⟩ => show win0_5.index ⟨(i 0).val / 1024, htl⟩ (1 : Fin 2) * 1024 ≤ (i 1).val ∧ (i 1).val < win0_5.index ⟨(i 0).val / 1024, htl⟩ (1 : Fin 2) * 1024 + 1024; omega

/-- The array after the region: the whole-array function. -/
theorem final5 (c : Dev nD) :
    (dat0 V c).arrAt 5 cfg0.N = PG 2048 (by norm_num) (V c main_v4) (V c main_v1) (V c main_v3) :=
  (dat0 V c).arrAt_eq_of_cover 5 _ (fun t _ => flushed5_eq V c t) cover5

end Cert.KernelIdeal.ProjValue

end
-- ==== Proof.Spec.lean ====
/-
  Single-head self-attention, index by index, on the extended reals.

  From an input `x : [8, 2048, 1024]`, three weight matrices `[1024, 1024]` and three bias vectors `[1024]`:
  the projections `q, k, v` with `q[b,s,h] = (∑ d, x[b,s,d] · Wq[d,h]) + bq[h]` (likewise `k`, `v`); the scores
  `(∑ h, q[b,i,h] · k[b,j,h]) / 32`; each row of scores turned into weights by subtracting the row's maximum,
  exponentiating and dividing by the row's sum; and the result `∑ j, weight[b,i,j] · v[b,j,h]`.
  A second form of the score, `∑ h, (q[b,i,h] · 2⁻⁵) · k[b,j,h]`, scales the query before the contraction; the two
  forms agree when the query and key entries are real numbers (distributivity over a finite sum needs that).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The three coordinates of a rank-3 index, at literal extents. -/
def c0 {a b c : ℕ} (i : (⟨3, ![a, b, c]⟩ : Shape).Idx) : Fin a := ⟨(i 0).val, (i 0).isLt⟩
def c1 {a b c : ℕ} (i : (⟨3, ![a, b, c]⟩ : Shape).Idx) : Fin b := ⟨(i 1).val, (i 1).isLt⟩
def c2 {a b c : ℕ} (i : (⟨3, ![a, b, c]⟩ : Shape).Idx) : Fin c := ⟨(i 2).val, (i 2).isLt⟩

theorem c0_ix3 {a b c : ℕ} (p : Fin a) (q : Fin b) (r : Fin c) : c0 (ix3 p q r) = p := rfl
theorem c1_ix3 {a b c : ℕ} (p : Fin a) (q : Fin b) (r : Fin c) : c1 (ix3 p q r) = q := rfl
theorem c2_ix3 {a b c : ℕ} (p : Fin a) (q : Fin b) (r : Fin c) : c2 (ix3 p q r) = r := rfl

/-- A linear projection with bias: `(∑ d, x[b,s,d] · w[d,h]) + bias[h]`. -/
def proj (x : (⟨3, ![8, 2048, 1024]⟩ : Shape).Idx → EReal) (w : (⟨2, ![1024, 1024]⟩ : Shape).Idx → EReal)
    (bias : (⟨1, ![1024]⟩ : Shape).Idx → EReal) (b : Fin 8) (s : Fin 2048) (h : Fin 1024) : EReal :=
  (∑ d : Fin 1024, x (ix3 b s d) * w (ix2 d h)) + bias (ix1 h)

/-- The maximum of a row, folded from `-∞`. -/
def rowMax {n : ℕ} (s : Fin n → EReal) : EReal :=
  (Finset.univ : Finset (Fin n)).fold max (Ideal.ofBits .f32 0xFF800000#32) s

/-- A row of scores turned into weights: `exp (s j − max s) / ∑ k, exp (s k − max s)`. -/
def softRow {n : ℕ} (s : Fin n → EReal) (j : Fin n) : EReal :=
  Ideal.div (Ideal.exp (s j - rowMax s)) (∑ k : Fin n, Ideal.exp (s k - rowMax s))

/-- A score with the contraction divided by `32`. -/
def score (q k : Fin 8 → Fin 2048 → Fin 1024 → EReal) (b : Fin 8) (i j : Fin 2048) : EReal :=
  Ideal.div (∑ h : Fin 1024, q b i h * k b j h) (Ideal.ofBits .f32 0x42000000#32)

/-- A score with the query scaled by `2⁻⁵` before the contraction. -/
def scoreK (q k : Fin 8 → Fin 2048 → Fin 1024 → EReal) (b : Fin 8) (i j : Fin 2048) : EReal :=
  ∑ h : Fin 1024, (q b i h * Ideal.ofBits .bf16 0x3D00#16) * k b j h

/-- The attention result from the divided scores. -/
def attn (q k v : Fin 8 → Fin 2048 → Fin 1024 → EReal) (b : Fin 8) (i : Fin 2048) (h : Fin 1024) : EReal :=
  ∑ j : Fin 2048, softRow (fun j' => score q k b i j') j * v b j h

/-- The attention result from the pre-scaled scores. -/
def attnK (q k v : Fin 8 → Fin 2048 → Fin 1024 → EReal) (b : Fin 8) (i : Fin 2048) (h : Fin 1024) : EReal :=
  ∑ j : Fin 2048, softRow (fun j' => scoreK q k b i j') j * v b j h

/-- The whole result array, from the seven argument arrays. -/
def out (x : (⟨3, ![8, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal) :
    (⟨3, ![8, 2048, 1024]⟩ : Shape).Idx → EReal :=
  fun idx => attn (proj x wq bq) (proj x wk bk) (proj x wv bv) (c0 idx) (c1 idx) (c2 idx)

theorem out_ix3 (x : (⟨3, ![8, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (b : Fin 8) (i : Fin 2048) (h : Fin 1024) :
    out x wq bq wk bk wv bv (ix3 b i h) = attn (proj x wq bq) (proj x wk bk) (proj x wv bv) b i h := rfl

/-- The same array from the pre-scaled scores. -/
def outK (x : (⟨3, ![8, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal) :
    (⟨3, ![8, 2048, 1024]⟩ : Shape).Idx → EReal :=
  fun idx => attnK (proj x wq bq) (proj x wk bk) (proj x wv bv) (c0 idx) (c1 idx) (c2 idx)

theorem outK_ix3 (x : (⟨3, ![8, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (b : Fin 8) (i : Fin 2048) (h : Fin 1024) :
    outK x wq bq wk bk wv bv (ix3 b i h) = attnK (proj x wq bq) (proj x wk bk) (proj x wv bv) b i h := rfl

end Cert.Attn

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.AttnBody.lean ====
/-
  The attention kernel's result block read at an index, on the extended reals.

  From a block of 512 query rows `q` and the 2048 key and value rows `k`, `v` of one batch element, all of width 1024,
  the kernel forms the scores `s[i,j] = ∑ h, (q[i,h] · 2⁻⁵) · k[j,h]`, turns each row of scores into weights by
  subtracting the row's maximum, exponentiating and dividing by the row's sum, and returns `∑ j, weight[i,j] · v[j,h]`.
  Each step that is not pointwise — the two contractions, the row maximum, the row sum and the recasts between
  [1, a, b] and [a, b] — is first read at an index; the last theorem composes them.
-/
import proofs.«125617_j48481590837426_2_alg».proof.Proof.Gen.KernelIdeal.Skeleton
import proofs.«125617_j48481590837426_2_alg».proof.Proof.Spec
import proofs.«125617_j48481590837426_2_alg».proof.Proof.LibRowsDot
import proofs.«125617_j48481590837426_2_alg».proof.Proof.LibPlainDot
import proofs.«125617_j48481590837426_2_alg».proof.Proof.LibRowMax
import proofs.«125617_j48481590837426_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnBody

open Idealize.ShloMosaic Idealize.ShloMosaic.ValueIdx Cert.KernelIdeal Cert.KernelIdeal.Gen

/-- The kernel's first contraction has the dimension numbers of a product of rows. -/
theorem dotScores_eq :
    dot_S512x1024_S2048x1024_S512x2048_1_1_0_0_n_n = DotDims.transposedRhs 512 1024 2048 := rfl

/-- The kernel's second contraction has the dimension numbers of a plain matrix product. -/
theorem dotOut_eq :
    dot_S512x2048_S2048x1024_S512x1024_1_0_0_1_n_n = DotDims.plain 512 2048 1024 := rfl

/-- The scores: the contraction of a query row with a key row. -/
theorem scores_apply (l : FVec Ideal S512x1024 .bf16) (r : FVec Ideal S2048x1024 .bf16) (a : Fin 512) (b : Fin 2048) :
    matmul dot_S512x1024_S2048x1024_S512x2048_1_1_0_0_n_n none l r (constant S512x2048 .f32 0x00000000#32) (ix2 a b)
      = ∑ k : Fin 1024, l (ix2 a k) * r (ix2 b k) :=
  Cert.RowsDot.matmul_zero_at_of_eq _ dotScores_eq l r a b

/-- A row's maximum from `-∞`, kept as a column and spread along the row. -/
theorem rowMaxCol_apply (s : FVec Ideal S512x2048 .f32) (p : Fin 512) (c : Fin 2048) :
    broadcastTo S512x2048
        (shapeCast S512x1 (multiReduction .maximumf [1] S512 s 0xFF800000#32 reduces_S512x2048_S512 (.inl rfl) rfl)
          shapeCasts_S512_S512x1) broadcasts_S512x1_S512x2048 (ix2 p c)
      = Cert.Attn.rowMax (fun k : Fin 2048 => s (ix2 p k)) :=
  (Cert.Gcn.Lib.broadcastTo_a1_ab_apply _ broadcasts_S512x1_S512x2048 p c).trans
    ((Cert.Gcn.Lib.shapeCast_a_a1_apply _ shapeCasts_S512_S512x1 p 0).trans
      (Cert.Lib.RowMax.rowmax_apply s reduces_S512x2048_S512 (.inl rfl) rfl p))

/-- A row's sum, kept as a column and spread along the row. -/
theorem rowSumCol_apply (e : FVec Ideal S512x2048 .f32) (p : Fin 512) (c : Fin 2048) :
    broadcastTo S512x2048
        (shapeCast S512x1 (multiReduction .add [1] S512 e 0x00000000#32 reduces_S512x2048_S512 (.inl rfl) rfl)
          shapeCasts_S512_S512x1) broadcasts_S512x1_S512x2048 (ix2 p c)
      = ∑ k : Fin 2048, e (ix2 p k) :=
  (Cert.Gcn.Lib.broadcastTo_a1_ab_apply _ broadcasts_S512x1_S512x2048 p c).trans
    ((Cert.Gcn.Lib.shapeCast_a_a1_apply _ shapeCasts_S512_S512x1 p 0).trans
      (Cert.Gcn.Lib.rowsum_apply e reduces_S512x2048_S512 (.inl rfl) rfl p))

/-- The exponential of a score less its row's maximum. -/
theorem expShift_apply (s : FVec Ideal S512x2048 .f32) (p : Fin 512) (c : Fin 2048) :
    exp (subf s (broadcastTo S512x2048
        (shapeCast S512x1 (multiReduction .maximumf [1] S512 s 0xFF800000#32 reduces_S512x2048_S512 (.inl rfl) rfl)
          shapeCasts_S512_S512x1) broadcasts_S512x1_S512x2048)) (ix2 p c)
      = Ideal.exp (s (ix2 p c) - Cert.Attn.rowMax (fun k : Fin 2048 => s (ix2 p k))) :=
  congrArg (fun m => Ideal.exp (s (ix2 p c) - m)) (rowMaxCol_apply s p c)

/-- The weights: an exponential over its row's sum of exponentials. -/
theorem weights_apply (s e : FVec Ideal S512x2048 .f32)
    (he : ∀ (p : Fin 512) (c : Fin 2048),
      e (ix2 p c) = Ideal.exp (s (ix2 p c) - Cert.Attn.rowMax (fun k : Fin 2048 => s (ix2 p k))))
    (p : Fin 512) (c : Fin 2048) :
    divf e (broadcastTo S512x2048
        (shapeCast S512x1 (multiReduction .add [1] S512 e 0x00000000#32 reduces_S512x2048_S512 (.inl rfl) rfl)
          shapeCasts_S512_S512x1) broadcasts_S512x1_S512x2048) (ix2 p c)
      = Cert.Attn.softRow (fun k : Fin 2048 => s (ix2 p k)) c :=
  congrArg₂ Ideal.div (he p c) ((rowSumCol_apply e p c).trans (Finset.sum_congr rfl fun k _ => he p k))

/-- A row of scores turned into weights, as the kernel computes it. -/
theorem softmax_apply (s : FVec Ideal S512x2048 .f32) (p : Fin 512) (c : Fin 2048) :
    divf (exp (subf s (broadcastTo S512x2048
          (shapeCast S512x1 (multiReduction .maximumf [1] S512 s 0xFF800000#32 reduces_S512x2048_S512 (.inl rfl) rfl)
            shapeCasts_S512_S512x1) broadcasts_S512x1_S512x2048)))
        (broadcastTo S512x2048
          (shapeCast S512x1 (multiReduction .add [1] S512
              (exp (subf s (broadcastTo S512x2048
                (shapeCast S512x1 (multiReduction .maximumf [1] S512 s 0xFF800000#32 reduces_S512x2048_S512 (.inl rfl) rfl)
                  shapeCasts_S512_S512x1) broadcasts_S512x1_S512x2048)))
              0x00000000#32 reduces_S512x2048_S512 (.inl rfl) rfl)
            shapeCasts_S512_S512x1) broadcasts_S512x1_S512x2048) (ix2 p c)
      = Cert.Attn.softRow (fun k : Fin 2048 => s (ix2 p k)) c :=
  weights_apply s _ (fun p c => expShift_apply s p c) p c

/-- The kernel's result block at `(0, i, h)`: the weighted sum of the value rows, the weights from the scaled scores of
    query row `i` against every key row. -/
theorem pay_apply (q0 : Vec Ideal S1x512x1024 .bf16) (k0 v0 : Vec Ideal S1x2048x1024 .bf16) (i : Fin 512) (h : Fin 1024) :
    k1_pay1 (F := Ideal) q0 k0 v0 (ix3 (0 : Fin 1) i h)
      = ∑ j : Fin 2048, Cert.Attn.softRow (fun j' : Fin 2048 => ∑ h' : Fin 1024,
            (q0 (ix3 (0 : Fin 1) i h') * Ideal.ofBits .bf16 0x3D00#16) * k0 (ix3 (0 : Fin 1) j' h')) j
          * v0 (ix3 (0 : Fin 1) j h) := by
  unfold k1_pay1
  refine (shapeCast_ab_1ab_apply _ shapeCasts_S512x1024_S1x512x1024 0 i h).trans ?_
  refine (congrFun (Cert.Lib.PlainDot.matmul_zero_eq _ dotOut_eq none _ _) (ix2 i h)).trans ?_
  refine Finset.sum_congr rfl fun j _ => ?_
  refine congrArg₂ (· * ·) ?_ (shapeCast_1ab_ab_apply v0 shapeCasts_S1x2048x1024_S2048x1024 j h)
  refine (softmax_apply _ i j).trans ?_
  refine congrArg (fun f => Cert.Attn.softRow f j) (funext fun j' => ?_)
  refine (scores_apply _ _ i j').trans (Finset.sum_congr rfl fun h' _ => ?_)
  refine congrArg₂ (· * ·) ?_ (shapeCast_1ab_ab_apply k0 shapeCasts_S1x2048x1024_S2048x1024 j' h')
  exact congrArg (· * Ideal.ofBits .bf16 0x3D00#16) (shapeCast_1ab_ab_apply q0 shapeCasts_S1x512x1024_S512x1024 i h')

end Cert.KernelIdeal.AttnBody

end
-- ==== Proof.AttnValue.lean ====
/-
  The attention region's output array, index by index.

  The region walks a grid of 8 × 4 points; point `t` holds batch element `t / 4` and the block of 512 query rows
  number `t % 4`, together with all 2048 key rows and value rows of that batch element, and writes back the block of
  512 result rows at the same place. Each point's written block is the block of ONE function of the three whole arrays
  — the attention of the query array over the key and value arrays, the query scaled before the contraction — and the
  32 blocks tile the result array; so the array ends holding that function.
-/
import proofs.«125617_j48481590837426_2_alg».proof.Proof.R1Defs
import proofs.«125617_j48481590837426_2_alg».proof.Proof.AttnBody
import proofs.«125617_j48481590837426_2_alg».proof.Proof.Spec
import Idealize.ShloMosaic.Lib.Pipeline.Value

set_option maxRecDepth 16384

noncomputable section

namespace Cert.KernelIdeal.AttnValue

open Cert.KernelIdeal Cert.KernelIdeal.Gen Cert.KernelIdeal.Frm Idealize.ShloMosaic Idealize.ShloMosaic.TcCoe
  Idealize.ShloMosaic.ValueIdx Idealize.SL.Sem
open Idealize.ShloMosaic.Pipeline (Dat)

/-- The attention of three whole [8,2048,1024] arrays, with the query scaled before the contraction. -/
def AG (q k v : S8x2048x1024.Idx → EReal) : S8x2048x1024.Idx → EReal :=
  fun idx => Cert.Attn.attnK (fun b i h => q (ix3 b i h)) (fun b j h => k (ix3 b j h)) (fun b j h => v (ix3 b j h)) (Cert.Attn.c0 idx) (Cert.Attn.c1 idx) (Cert.Attn.c2 idx)

theorem AG_ix3 (q k v : S8x2048x1024.Idx → EReal) (b : Fin 8) (i : Fin 2048) (h : Fin 1024) :
    AG q k v (ix3 b i h)
      = Cert.Attn.attnK (fun b i h => q (ix3 b i h)) (fun b j h => k (ix3 b j h)) (fun b j h => v (ix3 b j h)) b i h := rfl

/-- The zero offset of a whole-buffer rectangle, as a constant function. -/
theorem hz : (![0, 0, 0] : Fin 3 → Nat) = fun _ => 0 := funext fun a => by fin_cases a <;> rfl

/-- The four windows' block indices at each of the 32 grid points: point `t` is batch element `t / 4` and row block `t % 4`
    for the query and the result; the key and value blocks are the whole batch element. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

variable (V : (c : Dev nD) → (b : Ref sig .tc) → Buf (Elt Ideal) ((c : Thread nD τ).loc b))

/-- The query block at point `t`, at `(0, i, h)`: the query array at batch element `t / 4`, row `(t % 4) · 512 + i`. -/
theorem qblk_apply (c : Dev nD) (t : Fin cfg1.N) (i : Fin 512) (h : Fin 1024) (B : Fin 8) (I : Fin 2048)
    (hB : B.val = t.val / 4) (hI : I.val = (t.val % 4) * 512 + i.val) :
    iblk1 (F := Ideal) V c 0 t (ix3 (0 : Fin 1) i h) = V c main_v6 (ix3 B I h) := by
  obtain ⟨e0, e1, e2, -⟩ := idx_facts t
  show V c main_v6 (((cfg1.win 0).blk t).view.emb (ix3 (0 : Fin 1) i h)) = _
  refine congrArg _ (funext fun a => Fin.ext ?_)
  match a with
  | ⟨0, _⟩ => show win1_0.index t (0 : Fin 3) * 1 + 1 * 0 = B.val; omega
  | ⟨1, _⟩ => show win1_0.index t (1 : Fin 3) * 512 + 1 * i.val = I.val; omega
  | ⟨2, _⟩ => show win1_0.index t (2 : Fin 3) * 1024 + 1 * h.val = h.val; omega

/-- The key block at point `t`, at `(0, j, h)`: the key array at batch element `t / 4`, row `j`. -/
theorem kblk_apply (c : Dev nD) (t : Fin cfg1.N) (j : Fin 2048) (h : Fin 1024) (B : Fin 8) (hB : B.val = t.val / 4) :
    iblk1 (F := Ideal) V c 1 t (ix3 (0 : Fin 1) j h) = V c main_v7 (ix3 B j h) := by
  obtain ⟨-, -, -, e0, e1, e2, -⟩ := idx_facts t
  show V c main_v7 (((cfg1.win 1).blk t).view.emb (ix3 (0 : Fin 1) j h)) = _
  refine congrArg _ (funext fun a => Fin.ext ?_)
  match a with
  | ⟨0, _⟩ => show win1_1.index t (0 : Fin 3) * 1 + 1 * 0 = B.val; omega
  | ⟨1, _⟩ => show win1_1.index t (1 : Fin 3) * 2048 + 1 * j.val = j.val; omega
  | ⟨2, _⟩ => show win1_1.index t (2 : Fin 3) * 1024 + 1 * h.val = h.val; omega

/-- The value block at point `t`, at `(0, j, h)`: the value array at batch element `t / 4`, row `j`. -/
theorem vblk_apply (c : Dev nD) (t : Fin cfg1.N) (j : Fin 2048) (h : Fin 1024) (B : Fin 8) (hB : B.val = t.val / 4) :
    iblk1 (F := Ideal) V c 2 t (ix3 (0 : Fin 1) j h) = V c main_v8 (ix3 B j h) := by
  obtain ⟨-, -, -, -, -, -, e0, e1, e2, -⟩ := idx_facts t
  show V c main_v8 (((cfg1.win 2).blk t).view.emb (ix3 (0 : Fin 1) j h)) = _
  refine congrArg _ (funext fun a => Fin.ext ?_)
  match a with
  | ⟨0, _⟩ => show win1_2.index t (0 : Fin 3) * 1 + 1 * 0 = B.val; omega
  | ⟨1, _⟩ => show win1_2.index t (1 : Fin 3) * 2048 + 1 * j.val = j.val; omega
  | ⟨2, _⟩ => show win1_2.index t (2 : Fin 3) * 1024 + 1 * h.val = h.val; omega

/-- Where the result block of point `t` sits in the result array: `(0, i, h)` of the block is `(t / 4, (t % 4) · 512 + i, h)`. -/
theorem oblk_emb (t : Fin cfg1.N) (i : Fin 512) (h : Fin 1024) (B : Fin 8) (I : Fin 2048)
    (hB : B.val = t.val / 4) (hI : I.val = (t.val % 4) * 512 + i.val) :
    ((cfg1.win 3).blk t).view.emb (ix3 (0 : Fin 1) i h) = ix3 B I h := by
  obtain ⟨-, -, -, -, -, -, -, -, -, e0, e1, e2⟩ := idx_facts t
  refine funext fun a => Fin.ext ?_
  match a with
  | ⟨0, _⟩ => show win1_3.index t (0 : Fin 3) * 1 + 1 * 0 = B.val; omega
  | ⟨1, _⟩ => show win1_3.index t (1 : Fin 3) * 512 + 1 * i.val = I.val; omega
  | ⟨2, _⟩ => show win1_3.index t (2 : Fin 3) * 1024 + 1 * h.val = h.val; omega

/-- What point `t` writes back is block `t` of the attention of the three whole arrays. -/
theorem flushed_eq (c : Dev nD) (t : Fin cfg1.N) :
    (dat1 (F := Ideal) V c).flushed 3 t
      = ((cfg1.win 3).blk t).view.read (Elt Ideal) (AG (V c main_v6) (V c main_v7) (V c main_v8)) := by
  show (cfg1.win 3).cut (grid1.coords t) ((dat1 (F := Ideal) V c).after 3 t) = _
  rw [after1_3]
  unfold out1_3
  rw [View.canon_unit_zero hz]
  simp only [View.ld_unit_zero (S := S1x512x1024) hz, View.ld_unit_zero (S := S1x2048x1024) hz]
  funext y
  obtain ⟨u, i, h, rfl⟩ : ∃ (u : Fin 1) (i : Fin 512) (h : Fin 1024), y = ix3 u i h := ⟨y 0, y 1, y 2, eq_ix3 y⟩
  obtain rfl : u = 0 := Subsingleton.elim _ _
  have ht : t.val < 32 := lt_of_lt_of_eq t.isLt N_1
  have hB : t.val / 4 < 8 := by omega
  have hI : (t.val % 4) * 512 + i.val < 2048 := by have := i.isLt; omega
  show k1_pay1 (F := Ideal) (iblk1 V c 0 t) (iblk1 V c 1 t) (iblk1 V c 2 t) (ix3 (0 : Fin 1) i h)
      = AG (V c main_v6) (V c main_v7) (V c main_v8) (((cfg1.win 3).blk t).view.emb (ix3 (0 : Fin 1) i h))
  rw [oblk_emb t i h ⟨t.val / 4, hB⟩ ⟨(t.val % 4) * 512 + i.val, hI⟩ rfl rfl, AG_ix3]
  refine (Cert.KernelIdeal.AttnBody.pay_apply (iblk1 V c 0 t) (iblk1 V c 1 t) (iblk1 V c 2 t) i h).trans ?_
  unfold Cert.Attn.attnK Cert.Attn.scoreK
  refine Finset.sum_congr rfl fun j _ => ?_
  refine congrArg₂ (· * ·) (congrArg (fun f => Cert.Attn.softRow f j) (funext fun j' => Finset.sum_congr rfl fun h' _ => ?_))
    (vblk_apply V c t j h ⟨t.val / 4, hB⟩ rfl)
  exact congrArg₂ (· * ·)
    (congrArg (· * Ideal.ofBits .bf16 0x3D00#16) (qblk_apply V c t i h' ⟨t.val / 4, hB⟩ ⟨(t.val % 4) * 512 + i.val, hI⟩ rfl rfl))
    (kblk_apply V c t j' h' ⟨t.val / 4, hB⟩ rfl)

/-- An index of the result array is in point `t`'s block iff each coordinate is in the block's range on its axis. -/
theorem mem_blk (t : Fin cfg1.N) (i : S8x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v9).slice (win1_3.rect t)).set ↔ _
  rw [View.set_slice_whole, Rect.mem_set_unit]
  exact Iff.rfl

/-- Every index of the result array is in some point's block: batch element `b`, row `r` is in the block of point
    `b · 4 + r / 512`. -/
theorem cover (i : S8x2048x1024.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  have hN : grid1.N = 32 := N_1
  have hlt : (i 0).val * 4 + (i 1).val / 512 < grid1.N := by omega
  obtain ⟨t, tv⟩ : ∃ t : Fin cfg1.N, t.val = (i 0).val * 4 + (i 1).val / 512 := ⟨⟨_, hlt⟩, rfl⟩
  refine ⟨t, flush1_3 t, ?_⟩
  rw [mem_blk]
  obtain ⟨-, -, -, -, -, -, -, -, -, e0, e1, e2⟩ := idx_facts t
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 1024 ≤ (i 2).val ∧ (i 2).val < win1_3.index t (2 : Fin 3) * 1024 + 1024
    omega

/-- The result array after the region: the attention of the three whole arrays, at every index. -/
theorem final (c : Dev nD) :
    (dat1 (F := Ideal) V c).arrAt 3 cfg1.N = AG (V c main_v6) (V c main_v7) (V c main_v8) :=
  (dat1 (F := Ideal) V c).arrAt_eq_of_cover 3 (AG (V c main_v6) (V c main_v7) (V c main_v8))
    (fun t _ => flushed_eq V c t) cover

end Cert.KernelIdeal.AttnValue

end
-- ==== Proof.HostReads.lean ====
/-
  The host operations around the two regions, read at an index.

  Before the projection region the three weight matrices are joined along their columns into one `[1024, 3072]` matrix
  (then narrowed, which on the extended reals changes nothing), the three bias vectors are joined into one `[3072]`
  vector and given a unit leading axis, and the input's two leading axes are merged into one of `16384` rows. After the
  region each of its three results has its row axis split back into `[8, 2048]`. Each is read at an index built from
  literal coordinates: a join at a column `off + h` is the piece that starts at `off`, at `h`; a merge or a split of axes
  keeps the row-major position, so row `R = b · 2048 + s` is the pair `(b, s)`.
-/
import proofs.«125617_j48481590837426_2_alg».proof.Proof.RunDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Cert.KernelIdeal Cert.KernelIdeal.Gen Cert.KernelIdeal.Frm Idealize.ShloMosaic Idealize.ShloMosaic.TcCoe
  Idealize.ShloMosaic.ValueIdx Idealize.SL.Sem Idealize.ShloMosaic.StableHlo

/-! ## Joins and changes of axes over any arrays -/

section Generic

variable {α : Type}

/-- Three `[1024, 1024]` matrices joined along the columns, read in the first piece's span. -/
theorem cat_cols0 (x0 x1 x2 : S1024x1024.Idx → α)
    (hcat : Shape.Concatenates [S1024x1024, S1024x1024, S1024x1024] S1024x3072 1) (d h : Fin 1024) (cc : Fin 3072)
    (hc : cc.val = 0 + h.val) :
    concatenate S1024x3072 1 [⟨S1024x1024, x0⟩, ⟨S1024x1024, x1⟩, ⟨S1024x1024, x2⟩] hcat (ix2 d cc) = x0 (ix2 d h) :=
  concatenate_apply_piece 1 [⟨S1024x1024, x0⟩, ⟨S1024x1024, x1⟩, ⟨S1024x1024, x2⟩] hcat (ix2 d cc) 0 (by simp) S1024x1024 x0 rfl rfl 0 rfl (ix2 d h)
    (fun b hb => by
      match b with
      | ⟨0, _⟩ => rfl
      | ⟨1, _⟩ => exact absurd rfl hb)
    (by show 0 + h.val = cc.val; omega)

/-- The same join read in the second piece's span. -/
theorem cat_cols1 (x0 x1 x2 : S1024x1024.Idx → α)
    (hcat : Shape.Concatenates [S1024x1024, S1024x1024, S1024x1024] S1024x3072 1) (d h : Fin 1024) (cc : Fin 3072)
    (hc : cc.val = 1024 + h.val) :
    concatenate S1024x3072 1 [⟨S1024x1024, x0⟩, ⟨S1024x1024, x1⟩, ⟨S1024x1024, x2⟩] hcat (ix2 d cc) = x1 (ix2 d h) :=
  concatenate_apply_piece 1 [⟨S1024x1024, x0⟩, ⟨S1024x1024, x1⟩, ⟨S1024x1024, x2⟩] hcat (ix2 d cc) 1 (by simp) S1024x1024 x1 rfl rfl 1024 rfl (ix2 d h)
    (fun b hb => by
      match b with
      | ⟨0, _⟩ => rfl
      | ⟨1, _⟩ => exact absurd rfl hb)
    (by show 1024 + h.val = cc.val; omega)

/-- The same join read in the third piece's span. -/
theorem cat_cols2 (x0 x1 x2 : S1024x1024.Idx → α)
    (hcat : Shape.Concatenates [S1024x1024, S1024x1024, S1024x1024] S1024x3072 1) (d h : Fin 1024) (cc : Fin 3072)
    (hc : cc.val = 2048 + h.val) :
    concatenate S1024x3072 1 [⟨S1024x1024, x0⟩, ⟨S1024x1024, x1⟩, ⟨S1024x1024, x2⟩] hcat (ix2 d cc) = x2 (ix2 d h) :=
  concatenate_apply_piece 1 [⟨S1024x1024, x0⟩, ⟨S1024x1024, x1⟩, ⟨S1024x1024, x2⟩] hcat (ix2 d cc) 2 (by simp) S1024x1024 x2 rfl rfl 2048 rfl (ix2 d h)
    (fun b hb => by
      match b with
      | ⟨0, _⟩ => rfl
      | ⟨1, _⟩ => exact absurd rfl hb)
    (by show 2048 + h.val = cc.val; omega)

/-- Three `[1024]` vectors joined end to end, read in the first piece's span. -/
theorem cat_vec0 (x0 x1 x2 : S1024.Idx → α) (hcat : Shape.Concatenates [S1024, S1024, S1024] S3072 0)
    (h : Fin 1024) (cc : Fin 3072) (hc : cc.val = 0 + h.val) :
    concatenate S3072 0 [⟨S1024, x0⟩, ⟨S1024, x1⟩, ⟨S1024, x2⟩] hcat (ix1 cc) = x0 (ix1 h) :=
  concatenate_apply_piece 0 [⟨S1024, x0⟩, ⟨S1024, x1⟩, ⟨S1024, x2⟩] hcat (ix1 cc) 0 (by simp) S1024 x0 rfl rfl 0 rfl (ix1 h)
    (fun b hb => by
      match b with
      | ⟨0, _⟩ => exact absurd rfl hb)
    (by show 0 + h.val = cc.val; omega)

theorem cat_vec1 (x0 x1 x2 : S1024.Idx → α) (hcat : Shape.Concatenates [S1024, S1024, S1024] S3072 0)
    (h : Fin 1024) (cc : Fin 3072) (hc : cc.val = 1024 + h.val) :
    concatenate S3072 0 [⟨S1024, x0⟩, ⟨S1024, x1⟩, ⟨S1024, x2⟩] hcat (ix1 cc) = x1 (ix1 h) :=
  concatenate_apply_piece 0 [⟨S1024, x0⟩, ⟨S1024, x1⟩, ⟨S1024, x2⟩] hcat (ix1 cc) 1 (by simp) S1024 x1 rfl rfl 1024 rfl (ix1 h)
    (fun b hb => by
      match b with
      | ⟨0, _⟩ => exact absurd rfl hb)
    (by show 1024 + h.val = cc.val; omega)

theorem cat_vec2 (x0 x1 x2 : S1024.Idx → α) (hcat : Shape.Concatenates [S1024, S1024, S1024] S3072 0)
    (h : Fin 1024) (cc : Fin 3072) (hc : cc.val = 2048 + h.val) :
    concatenate S3072 0 [⟨S1024, x0⟩, ⟨S1024, x1⟩, ⟨S1024, x2⟩] hcat (ix1 cc) = x2 (ix1 h) :=
  concatenate_apply_piece 0 [⟨S1024, x0⟩, ⟨S1024, x1⟩, ⟨S1024, x2⟩] hcat (ix1 cc) 2 (by simp) S1024 x2 rfl rfl 2048 rfl (ix1 h)
    (fun b hb => by
      match b with
      | ⟨0, _⟩ => exact absurd rfl hb)
    (by show 2048 + h.val = cc.val; omega)

/-- A vector given a unit leading axis, read at `(0, cc)`. -/
theorem row_of_vec (x : S3072.Idx → α) (hs : S3072.ShapeCasts S1x3072) (cc : Fin 3072) :
    shapeCast S1x3072 x hs (ix2 (0 : Fin 1) cc) = x (ix1 cc) :=
  shapeCast_apply x hs (ix2 (0 : Fin 1) cc) (ix1 cc) (by
    rw [Shape.rowMajor_val_one, Shape.rowMajor_val_two]
    show cc.val = 0 * 3072 + cc.val
    omega)

/-- The two leading axes merged: row `b · 2048 + s` is the pair `(b, s)`. -/
theorem merge_rows (x : S8x2048x1024.Idx → α) (hs : S8x2048x1024.ShapeCasts S16384x1024) (b : Fin 8) (s : Fin 2048)
    (d : Fin 1024) (R : Fin 16384) (hR : R.val = b.val * 2048 + s.val) :
    shapeCast S16384x1024 x hs (ix2 R d) = x (ix3 b s d) :=
  shapeCast_apply x hs (ix2 R d) (ix3 b s d) (by
    rw [Shape.rowMajor_val_three, Shape.rowMajor_val_two]
    show (b.val * 2048 + s.val) * 1024 + d.val = R.val * 1024 + d.val
    rw [hR])

/-- The row axis split: the pair `(b, s)` is row `b · 2048 + s`. -/
theorem split_rows (y : S16384x1024.Idx → α) (hs : S16384x1024.ShapeCasts S8x2048x1024) (b : Fin 8) (s : Fin 2048)
    (h : Fin 1024) (R : Fin 16384) (hR : R.val = b.val * 2048 + s.val) :
    shapeCast S8x2048x1024 y hs (ix3 b s h) = y (ix2 R h) :=
  shapeCast_apply y hs (ix3 b s h) (ix2 R h) (by
    rw [Shape.rowMajor_val_three, Shape.rowMajor_val_two]
    show R.val * 1024 + h.val = (b.val * 2048 + s.val) * 1024 + h.val
    rw [hR])

end Generic

/-! ## The buffers the host operations write, as terms of what they read -/

variable (m : (ℓ : Loc nD τ sig) → Buf (Elt Ideal) ℓ) (c : Dev nD)

theorem v4_eq : (V1 (F := Ideal) m c main_v4 : S16384x1024.Idx → EReal)
    = shapeCast S16384x1024 (m ((c : Thread nD τ).loc main_arg0)) shapeCasts_S8x2048x1024_S16384x1024 := by
  dsimp only [V1, W1, hostOps0]
  after_results
  rfl

theorem v3_eq : (V1 (F := Ideal) m c main_v3 : S1x3072.Idx → EReal)
    = shapeCast S1x3072 (concatenate S3072 0 [⟨S1024, m ((c : Thread nD τ).loc main_arg2)⟩,
        ⟨S1024, m ((c : Thread nD τ).loc main_arg4)⟩, ⟨S1024, m ((c : Thread nD τ).loc main_arg6)⟩]
        concatenates_S1024_S1024_S1024_S3072_d0) shapeCasts_S3072_S1x3072 := by
  dsimp only [V1, W1, hostOps0]
  after_results
  rfl

theorem v1_eq : (V1 (F := Ideal) m c main_v1 : S1024x3072.Idx → EReal)
    = truncf (F := Ideal) .bf16 (concatenate S1024x3072 1 [⟨S1024x1024, m ((c : Thread nD τ).loc main_arg1)⟩,
        ⟨S1024x1024, m ((c : Thread nD τ).loc main_arg3)⟩, ⟨S1024x1024, m ((c : Thread nD τ).loc main_arg5)⟩]
        concatenates_S1024x1024_S1024x1024_S1024x1024_S1024x3072_d1) bitsLt_bf16_f32 := by
  dsimp only [V1, W1, hostOps0]
  after_results
  rfl

theorem v6_eq : (V3 (F := Ideal) m c main_v6 : S8x2048x1024.Idx → EReal)
    = shapeCast S8x2048x1024 (W2 m c (Proc.devRef .tc main_v5_0)) shapeCasts_S16384x1024_S8x2048x1024 := by
  dsimp only [V3, W3, hostOps1]
  after_results
  rfl

theorem v7_eq : (V3 (F := Ideal) m c main_v7 : S8x2048x1024.Idx → EReal)
    = shapeCast S8x2048x1024 (W2 m c (Proc.devRef .tc main_v5_1)) shapeCasts_S16384x1024_S8x2048x1024 := by
  dsimp only [V3, W3, hostOps1]
  after_results
  rfl

theorem v8_eq : (V3 (F := Ideal) m c main_v8 : S8x2048x1024.Idx → EReal)
    = shapeCast S8x2048x1024 (W2 m c (Proc.devRef .tc main_v5_2)) shapeCasts_S16384x1024_S8x2048x1024 := by
  dsimp only [V3, W3, hostOps1]
  after_results
  rfl

/-! ## Read at an index -/

/-- The merged input at row `b · 2048 + s` is the input at `(b, s)`. -/
theorem x_apply (b : Fin 8) (s : Fin 2048) (d : Fin 1024) (R : Fin 16384) (hR : R.val = b.val * 2048 + s.val) :
    V1 (F := Ideal) m c main_v4 (ix2 R d) = m ((c : Thread nD τ).loc main_arg0) (ix3 b s d) :=
  (congrFun (v4_eq m c) (ix2 R d)).trans (merge_rows _ _ b s d R hR)

/-- The joined weights in the query's columns. -/
theorem wq_apply (d h : Fin 1024) (cc : Fin 3072) (hc : cc.val = 0 + h.val) :
    V1 (F := Ideal) m c main_v1 (ix2 d cc) = m ((c : Thread nD τ).loc main_arg1) (ix2 d h) :=
  (congrFun (v1_eq m c) (ix2 d cc)).trans (cat_cols0 (m ((c : Thread nD τ).loc main_arg1) : S1024x1024.Idx → EReal) (m ((c : Thread nD τ).loc main_arg3)) (m ((c : Thread nD τ).loc main_arg5))
      concatenates_S1024x1024_S1024x1024_S1024x1024_S1024x3072_d1 d h cc hc)

/-- In the key's columns. -/
theorem wk_apply (d h : Fin 1024) (cc : Fin 3072) (hc : cc.val = 1024 + h.val) :
    V1 (F := Ideal) m c main_v1 (ix2 d cc) = m ((c : Thread nD τ).loc main_arg3) (ix2 d h) :=
  (congrFun (v1_eq m c) (ix2 d cc)).trans (cat_cols1 (m ((c : Thread nD τ).loc main_arg1) : S1024x1024.Idx → EReal) (m ((c : Thread nD τ).loc main_arg3)) (m ((c : Thread nD τ).loc main_arg5))
      concatenates_S1024x1024_S1024x1024_S1024x1024_S1024x3072_d1 d h cc hc)

/-- In the value's columns. -/
theorem wv_apply (d h : Fin 1024) (cc : Fin 3072) (hc : cc.val = 2048 + h.val) :
    V1 (F := Ideal) m c main_v1 (ix2 d cc) = m ((c : Thread nD τ).loc main_arg5) (ix2 d h) :=
  (congrFun (v1_eq m c) (ix2 d cc)).trans (cat_cols2 (m ((c : Thread nD τ).loc main_arg1) : S1024x1024.Idx → EReal) (m ((c : Thread nD τ).loc main_arg3)) (m ((c : Thread nD τ).loc main_arg5))
      concatenates_S1024x1024_S1024x1024_S1024x1024_S1024x3072_d1 d h cc hc)

/-- The joined biases in the query's span. -/
theorem bq_apply (h : Fin 1024) (cc : Fin 3072) (hc : cc.val = 0 + h.val) :
    V1 (F := Ideal) m c main_v3 (ix2 (0 : Fin 1) cc) = m ((c : Thread nD τ).loc main_arg2) (ix1 h) :=
  (congrFun (v3_eq m c) (ix2 (0 : Fin 1) cc)).trans ((row_of_vec _ _ cc).trans (cat_vec0 (m ((c : Thread nD τ).loc main_arg2) : S1024.Idx → EReal) (m ((c : Thread nD τ).loc main_arg4)) (m ((c : Thread nD τ).loc main_arg6))
      concatenates_S1024_S1024_S1024_S3072_d0 h cc hc))

/-- In the key's span. -/
theorem bk_apply (h : Fin 1024) (cc : Fin 3072) (hc : cc.val = 1024 + h.val) :
    V1 (F := Ideal) m c main_v3 (ix2 (0 : Fin 1) cc) = m ((c : Thread nD τ).loc main_arg4) (ix1 h) :=
  (congrFun (v3_eq m c) (ix2 (0 : Fin 1) cc)).trans ((row_of_vec _ _ cc).trans (cat_vec1 (m ((c : Thread nD τ).loc main_arg2) : S1024.Idx → EReal) (m ((c : Thread nD τ).loc main_arg4)) (m ((c : Thread nD τ).loc main_arg6))
      concatenates_S1024_S1024_S1024_S3072_d0 h cc hc))

/-- In the value's span. -/
theorem bv_apply (h : Fin 1024) (cc : Fin 3072) (hc : cc.val = 2048 + h.val) :
    V1 (F := Ideal) m c main_v3 (ix2 (0 : Fin 1) cc) = m ((c : Thread nD τ).loc main_arg6) (ix1 h) :=
  (congrFun (v3_eq m c) (ix2 (0 : Fin 1) cc)).trans ((row_of_vec _ _ cc).trans (cat_vec2 (m ((c : Thread nD τ).loc main_arg2) : S1024.Idx → EReal) (m ((c : Thread nD τ).loc main_arg4)) (m ((c : Thread nD τ).loc main_arg6))
      concatenates_S1024_S1024_S1024_S3072_d0 h cc hc))

/-- The query as the attention region finds it: the projection region's first result at row `b · 2048 + s`. -/
theorem q3_apply (b : Fin 8) (s : Fin 2048) (h : Fin 1024) (R : Fin 16384) (hR : R.val = b.val * 2048 + s.val) :
    V3 (F := Ideal) m c main_v6 (ix3 b s h) = (dat0 (V1 m) c).arrAt 3 cfg0.N (ix2 R h) :=
  (congrFun (v6_eq m c) (ix3 b s h)).trans ((split_rows _ _ b s h R hR).trans (congrFun (W2_arr m c 3) (ix2 R h)))

/-- The key. -/
theorem k3_apply (b : Fin 8) (s : Fin 2048) (h : Fin 1024) (R : Fin 16384) (hR : R.val = b.val * 2048 + s.val) :
    V3 (F := Ideal) m c main_v7 (ix3 b s h) = (dat0 (V1 m) c).arrAt 4 cfg0.N (ix2 R h) :=
  (congrFun (v7_eq m c) (ix3 b s h)).trans ((split_rows _ _ b s h R hR).trans (congrFun (W2_arr m c 4) (ix2 R h)))

/-- The value. -/
theorem v3_apply (b : Fin 8) (s : Fin 2048) (h : Fin 1024) (R : Fin 16384) (hR : R.val = b.val * 2048 + s.val) :
    V3 (F := Ideal) m c main_v8 (ix3 b s h) = (dat0 (V1 m) c).arrAt 5 cfg0.N (ix2 R h) :=
  (congrFun (v8_eq m c) (ix3 b s h)).trans ((split_rows _ _ b s h R hR).trans (congrFun (W2_arr m c 5) (ix2 R h)))

end Cert.KernelIdeal.HostReads

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.ScoreLaw.lean ====
/-
  Scaling the query before the contraction, or dividing the contraction afterwards: the same score on real data.

  `∑ h, (q h · 2⁻⁵) · k h = (∑ h, q h · k h) / 32` when every `q h` and `k h` is a real number: the pattern `0x3D00` in
  the 16-bit format denotes `1/32`, the pattern `0x42000000` denotes `32`, division by a nonzero real is multiplication
  by its reciprocal, and a real factor moves across a finite sum of reals (it would not across infinities).
  The projections of real inputs are real, so the two forms of the whole attention agree on real arguments.
-/
import proofs.«125617_j48481590837426_2_alg».proof.Proof.Spec
import proofs.«125617_j48481590837426_2_alg».proof.Proof.LibAggLinear

noncomputable section

namespace Cert.Attn

open Idealize.ShloMosaic Idealize.ShloMosaic.ValueIdx Cert.Lib.AggLinear

/-- The scale `2⁻⁵`. -/
theorem scale_eq : Ideal.ofBits .bf16 0x3D00#16 = ((1 / 32 : ℝ) : EReal) := by
  simp [Ideal.ofBits, Ideal.ieee, -EReal.coe_mul]; norm_num

/-- The divisor `32`. -/
theorem divisor_eq : Ideal.ofBits .f32 0x42000000#32 = ((32 : ℝ) : EReal) := by
  simp [Ideal.ofBits, Ideal.ieee, -EReal.coe_mul]; norm_num

/-- On real queries and keys the pre-scaled score is the divided one. -/
theorem scoreK_eq (q k : Fin 8 → Fin 2048 → Fin 1024 → EReal) (b : Fin 8) (i j : Fin 2048)
    (hq : ∀ h, IsReal (q b i h)) (hk : ∀ h, IsReal (k b j h)) : scoreK q k b i j = score q k b i j := by
  unfold scoreK score
  rw [scale_eq, divisor_eq, Ideal.div_coe (by norm_num : (32 : ℝ) ≠ 0)]
  choose q' hq' using hq
  choose k' hk' using hk
  simp only [hq', hk']
  have key : (∑ h : Fin 1024, (q' h * (1 / 32)) * k' h : ℝ) = (∑ h : Fin 1024, q' h * k' h) * (1 / 32) := by
    rw [Finset.sum_mul]
    exact Finset.sum_congr rfl fun h _ => by ring
  have e := congrArg (fun x : ℝ => (x : EReal)) key
  simp only [EReal.coe_mul, coe_sum] at e
  exact e

/-- A projection of real data is real. -/
theorem proj_real (x : (⟨3, ![8, 2048, 1024]⟩ : Shape).Idx → EReal) (w : (⟨2, ![1024, 1024]⟩ : Shape).Idx → EReal)
    (bias : (⟨1, ![1024]⟩ : Shape).Idx → EReal) (hx : ∀ i, IsReal (x i)) (hw : ∀ i, IsReal (w i)) (hb : ∀ i, IsReal (bias i))
    (b : Fin 8) (s : Fin 2048) (h : Fin 1024) : IsReal (proj x w bias b s h) :=
  (IsReal.sum _ _ fun d _ => (hx _).mul (hw _)).add (hb _)

/-- On real arguments the two forms of the whole result agree. -/
theorem outK_eq (x : (⟨3, ![8, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (hx : ∀ i, IsReal (x i)) (hwq : ∀ i, IsReal (wq i)) (hbq : ∀ i, IsReal (bq i))
    (hwk : ∀ i, IsReal (wk i)) (hbk : ∀ i, IsReal (bk i)) :
    outK x wq bq wk bk wv bv = out x wq bq wk bk wv bv := by
  funext idx
  have hs : ∀ (b : Fin 8) (i : Fin 2048),
      (fun j' => scoreK (proj x wq bq) (proj x wk bk) b i j') = fun j' => score (proj x wq bq) (proj x wk bk) b i j' :=
    fun b i => funext fun j' => scoreK_eq _ _ b i j' (fun h => proj_real x wq bq hx hwq hbq b i h)
      (fun h => proj_real x wk bk hx hwk hbk b j' h)
  unfold outK out attnK attn
  rw [hs]

end Cert.Attn

end
-- ==== Proof.KernelValue.lean ====
/-
  The idealized kernel's result array is the attention of the argument arrays.

  The attention region leaves in the result array the pre-scaled attention of the three arrays it reads; each of those
  is a reshape `[16384, 1024] → [8, 2048, 1024]` of an output of the projection region (row `2048·b + s` becomes
  `(b, s)`); that output is a column third of `X · W + bias` over the reshaped input, the joined weights and the joined
  bias, whose entries are the arguments' own: so the three arrays are the projections `q, k, v` of the arguments. On real
  arguments the pre-scaled attention is the divided one.
-/
import proofs.«125617_j48481590837426_2_alg».proof.Proof.RunDefs
import proofs.«125617_j48481590837426_2_alg».proof.Proof.ProjValue
import proofs.«125617_j48481590837426_2_alg».proof.Proof.AttnValue
import proofs.«125617_j48481590837426_2_alg».proof.Proof.HostReads
import proofs.«125617_j48481590837426_2_alg».proof.Proof.ScoreLaw

noncomputable section

namespace Cert.KernelIdeal.KernelValue

open Cert.KernelIdeal Cert.KernelIdeal.Gen Cert.KernelIdeal.Frm Idealize.ShloMosaic Idealize.ShloMosaic.TcCoe
open Idealize.ShloMosaic.ValueIdx Idealize.SL.Sem Cert.Lib.AggLinear

variable (m : (ℓ : Loc nD τ sig) → Buf (Elt Ideal) ℓ) (c : Dev nD)

/-- The query array the attention region reads is the query projection of the arguments. -/
theorem q_eq (b : Fin 8) (s : Fin 2048) (h : Fin 1024) :
    V3 (F := Ideal) m c main_v6 (ix3 b s h)
      = Cert.Attn.proj (m ((c : Thread nD τ).loc main_arg0)) (m ((c : Thread nD τ).loc main_arg1)) (m ((c : Thread nD τ).loc main_arg2)) b s h := by
  have hb := b.isLt; have hs := s.isLt; have hh := h.isLt
  rw [HostReads.q3_apply m c b s h ⟨b.val * 2048 + s.val, by omega⟩ rfl, ProjValue.final3 (V1 m) c,
    ProjValue.PG_ix2 0 (by norm_num) _ _ _ _ h ⟨0 + h.val, by omega⟩ rfl]
  unfold Cert.Attn.proj
  exact congrArg₂ (· + ·)
    (Finset.sum_congr rfl fun d _ => congrArg₂ (· * ·) (HostReads.x_apply m c b s d _ rfl) (HostReads.wq_apply m c d h _ rfl))
    (HostReads.bq_apply m c h _ rfl)

/-- The key array is the key projection. -/
theorem k_eq (b : Fin 8) (s : Fin 2048) (h : Fin 1024) :
    V3 (F := Ideal) m c main_v7 (ix3 b s h)
      = Cert.Attn.proj (m ((c : Thread nD τ).loc main_arg0)) (m ((c : Thread nD τ).loc main_arg3)) (m ((c : Thread nD τ).loc main_arg4)) b s h := by
  have hb := b.isLt; have hs := s.isLt; have hh := h.isLt
  rw [HostReads.k3_apply m c b s h ⟨b.val * 2048 + s.val, by omega⟩ rfl, ProjValue.final4 (V1 m) c,
    ProjValue.PG_ix2 1024 (by norm_num) _ _ _ _ h ⟨1024 + h.val, by omega⟩ rfl]
  unfold Cert.Attn.proj
  exact congrArg₂ (· + ·)
    (Finset.sum_congr rfl fun d _ => congrArg₂ (· * ·) (HostReads.x_apply m c b s d _ rfl) (HostReads.wk_apply m c d h _ rfl))
    (HostReads.bk_apply m c h _ rfl)

/-- The value array is the value projection. -/
theorem v_eq (b : Fin 8) (s : Fin 2048) (h : Fin 1024) :
    V3 (F := Ideal) m c main_v8 (ix3 b s h)
      = Cert.Attn.proj (m ((c : Thread nD τ).loc main_arg0)) (m ((c : Thread nD τ).loc main_arg5)) (m ((c : Thread nD τ).loc main_arg6)) b s h := by
  have hb := b.isLt; have hs := s.isLt; have hh := h.isLt
  rw [HostReads.v3_apply m c b s h ⟨b.val * 2048 + s.val, by omega⟩ rfl, ProjValue.final5 (V1 m) c,
    ProjValue.PG_ix2 2048 (by norm_num) _ _ _ _ h ⟨2048 + h.val, by omega⟩ rfl]
  unfold Cert.Attn.proj
  exact congrArg₂ (· + ·)
    (Finset.sum_congr rfl fun d _ => congrArg₂ (· * ·) (HostReads.x_apply m c b s d _ rfl) (HostReads.wv_apply m c d h _ rfl))
    (HostReads.bv_apply m c h _ rfl)

/-- The result array after the run, in the pre-scaled form. -/
theorem result_eqK :
    W4 (F := Ideal) m c (Proc.devRef .tc main_v9)
      = Cert.Attn.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (W4_arr m c 3).trans ?_
  rw [AttnValue.final (V3 m) c]
  funext idx
  unfold AttnValue.AG Cert.Attn.outK
  have eq : (fun (b : Fin 8) (i : Fin 2048) (h : Fin 1024) => V3 (F := Ideal) m c main_v6 (ix3 b i h))
      = Cert.Attn.proj (m ((c : Thread nD τ).loc main_arg0)) (m ((c : Thread nD τ).loc main_arg1)) (m ((c : Thread nD τ).loc main_arg2)) :=
    funext fun b => funext fun i => funext fun h => q_eq m c b i h
  have ek : (fun (b : Fin 8) (i : Fin 2048) (h : Fin 1024) => V3 (F := Ideal) m c main_v7 (ix3 b i h))
      = Cert.Attn.proj (m ((c : Thread nD τ).loc main_arg0)) (m ((c : Thread nD τ).loc main_arg3)) (m ((c : Thread nD τ).loc main_arg4)) :=
    funext fun b => funext fun i => funext fun h => k_eq m c b i h
  have ev : (fun (b : Fin 8) (i : Fin 2048) (h : Fin 1024) => V3 (F := Ideal) m c main_v8 (ix3 b i h))
      = Cert.Attn.proj (m ((c : Thread nD τ).loc main_arg0)) (m ((c : Thread nD τ).loc main_arg5)) (m ((c : Thread nD τ).loc main_arg6)) :=
    funext fun b => funext fun i => funext fun h => v_eq m c b i h
  rw [eq, ek, ev]

/-- On real arguments: the specification. -/
theorem result_eq
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    W4 (F := Ideal) m c (Proc.devRef .tc main_v9)
      = Cert.Attn.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) :=
  (result_eqK m c).trans (Cert.Attn.outK_eq _ _ _ _ _ _ _ h0 h1 h2 h3 h4)

end Cert.KernelIdeal.KernelValue

end
-- ==== Proof.LibRowMax3.lean ====
/-
  A maximum from `-∞` along the LAST axis of a rank-3 array, read at an index, on the extended reals.

  The host's `stablehlo.reduce` with a maximum body from the value of the pattern `0xFF800000` (`-∞`) along the third
  axis of an `[a, n, b]` array, at `(p, r)`, is the fold of `max` from `-∞` over the `b` entries `(p, r, ·)`. The reduced index
  `(p, r)` with the third coordinate `k` put back is `(p, r, k)`. (The rank-2 companion reads a row maximum of a matrix.)
-/
import Idealize.ShloMosaic.Lib.ValueIdx
import Idealize.ShloMosaic.PureOps.Ideal.Laws

noncomputable section

namespace Cert.Lib.RowMax3

open Idealize.ShloMosaic Idealize.ShloMosaic.ValueIdx

/-- The reduced index `(p, r)` with the last coordinate `k` put back is `(p, r, k)`. -/
theorem lift_last {a n b : ℕ} (hr : (⟨3, ![a, n, b]⟩ : Shape).Reduces [2] ⟨2, ![a, n]⟩) (p : Fin a) (r : Fin n)
    (k : Fin ((⟨3, ![a, n, b]⟩ : Shape).size 2)) : hr.lift (ix2 p r) k = ix3 p r (⟨k.val, k.isLt⟩ : Fin b) := by
  funext d; apply Fin.ext
  match d with
  | ⟨0, _⟩ => rfl
  | ⟨1, _⟩ => rfl
  | ⟨2, _⟩ => rfl

/-- The host's reduce with a maximum body from `-∞` along the last axis, at `(p, r)`, is the fold of `max` from `-∞`
    over the entries `(p, r, ·)`. -/
theorem hostLastMax_apply {a n b : ℕ} (z : FVec Ideal ⟨3, ![a, n, b]⟩ .f32)
    (hrt : (⟨3, ![a, n, b]⟩ : Shape).ReducesTo [2] ⟨2, ![a, n]⟩) (hr : (⟨3, ![a, n, b]⟩ : Shape).Reduces [2] ⟨2, ![a, n]⟩)
    (hu : 0 < (⟨0, ![]⟩ : Shape).numel) (p : Fin a) (r : Fin n) :
    Host.reduce FloatOps.maximumf z (constant (F := Ideal) ⟨0, ![]⟩ .f32 0xFF800000#32) hrt hu (ix2 p r)
      = (Finset.univ : Finset (Fin b)).fold max (Ideal.ofBits .f32 0xFF800000#32) (fun k => z (ix3 p r k)) := by
  rw [Host.reduce_eq_fold_single FloatOps.maximumf z _ hrt hr hu]
  have hf : (z ∘ hr.lift (ix2 p r)) = fun k : Fin b => z (ix3 p r k) := funext fun k => congrArg z (lift_last hr p r k)
  exact congrArg (fun f => Finset.fold max (Ideal.ofBits .f32 0xFF800000#32) f (Finset.univ : Finset (Fin b))) hf

end Cert.Lib.RowMax3

end
-- ==== Proof.RefValue.lean ====
/-
  The reference's result, index by index, is the specification's attention.

  The reference computes the three projections `q, k, v` as a contraction plus a bias spread over the leading axes, the
  scores as a contraction of `q` with `k` divided by `32`, the row maximum by a fold of `max` from `-∞` (then once more
  against `-∞`, which changes nothing), the weights as `exp (score − max)` divided by the row's sum (taken from `0`), and
  the result as the contraction of the weights with `v`. Each stage is read at an index built from literal coordinates
  and identified with the specification's function of the same name; the stages are then chained.
-/
import proofs.«125617_j48481590837426_2_alg».proof.Proof.Gen.ReferenceIdeal.Read
import proofs.«125617_j48481590837426_2_alg».proof.Proof.Spec
import proofs.«125617_j48481590837426_2_alg».proof.Proof.LibRowMax3
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## The index functions at literal coordinates -/

theorem lidx_v0 (b : Fin 8) (s : Fin 2048) (h k : Fin 1024) : lidx_main_v0 (ix3 b s h) k = ix3 b s k :=
  funext fun a => Fin.ext (by match a with | ⟨0, _⟩ => rfl | ⟨1, _⟩ => rfl | ⟨2, _⟩ => rfl)
theorem ridx_v0 (b : Fin 8) (s : Fin 2048) (h k : Fin 1024) : ridx_main_v0 (ix3 b s h) k = ix2 k h :=
  funext fun a => Fin.ext (by match a with | ⟨0, _⟩ => rfl | ⟨1, _⟩ => rfl)
theorem bidx_v2 (b : Fin 8) (s : Fin 2048) (h : Fin 1024) : idx_main_v1 (idx_main_v2 (ix3 b s h)) = ix1 h :=
  funext fun a => Fin.ext (by match a with | ⟨0, _⟩ => rfl)

theorem lidx_v4 (b : Fin 8) (s : Fin 2048) (h k : Fin 1024) : lidx_main_v4 (ix3 b s h) k = ix3 b s k :=
  funext fun a => Fin.ext (by match a with | ⟨0, _⟩ => rfl | ⟨1, _⟩ => rfl | ⟨2, _⟩ => rfl)
theorem ridx_v4 (b : Fin 8) (s : Fin 2048) (h k : Fin 1024) : ridx_main_v4 (ix3 b s h) k = ix2 k h :=
  funext fun a => Fin.ext (by match a with | ⟨0, _⟩ => rfl | ⟨1, _⟩ => rfl)
theorem bidx_v6 (b : Fin 8) (s : Fin 2048) (h : Fin 1024) : idx_main_v5 (idx_main_v6 (ix3 b s h)) = ix1 h :=
  funext fun a => Fin.ext (by match a with | ⟨0, _⟩ => rfl)

theorem lidx_v8 (b : Fin 8) (s : Fin 2048) (h k : Fin 1024) : lidx_main_v8 (ix3 b s h) k = ix3 b s k :=
  funext fun a => Fin.ext (by match a with | ⟨0, _⟩ => rfl | ⟨1, _⟩ => rfl | ⟨2, _⟩ => rfl)
theorem ridx_v8 (b : Fin 8) (s : Fin 2048) (h k : Fin 1024) : ridx_main_v8 (ix3 b s h) k = ix2 k h :=
  funext fun a => Fin.ext (by match a with | ⟨0, _⟩ => rfl | ⟨1, _⟩ => rfl)
theorem bidx_v10 (b : Fin 8) (s : Fin 2048) (h : Fin 1024) : idx_main_v9 (idx_main_v10 (ix3 b s h)) = ix1 h :=
  funext fun a => Fin.ext (by match a with | ⟨0, _⟩ => rfl)

/-! ## The projections -/

/-- The query: a contraction over the model axis plus the bias of the output coordinate. -/
theorem q_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (b : Fin 8) (s : Fin 2048) (h : Fin 1024) :
    val_main_v3 (F := Ideal) x0 x1 x2 (ix3 b s h) = Cert.Attn.proj x0 x1 x2 b s h := by
  rw [val_main_v3_apply, val_main_v0_apply, val_main_v2_apply, val_main_v1_apply, Ideal.addf_def]
  unfold Cert.Attn.proj
  simp only [lidx_v0, ridx_v0, bidx_v2]

/-- The key. -/
theorem k_apply (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) (b : Fin 8) (s : Fin 2048) (h : Fin 1024) :
    val_main_v7 (F := Ideal) x0 x3 x4 (ix3 b s h) = Cert.Attn.proj x0 x3 x4 b s h := by
  rw [val_main_v7_apply, val_main_v4_apply, val_main_v6_apply, val_main_v5_apply, Ideal.addf_def]
  unfold Cert.Attn.proj
  simp only [lidx_v4, ridx_v4, bidx_v6]

/-- The value. -/
theorem v_apply (x0 : (⟨S8x2048x1024, .f32⟩ : BufTy).Contents (Elt Ideal)) (x5 : (⟨S1024x1024, .f32⟩ : BufTy).Contents (Elt Ideal))
    (x6 : (⟨S1024, .f32⟩ : BufTy).Contents (Elt Ideal)) (b : Fin 8) (s : Fin 2048) (h : Fin 1024) :
    val_main_v11 (F := Ideal) x0 x5 x6 (ix3 b s h) = Cert.Attn.proj x0 x5 x6 b s h := by
  rw [val_main_v11_apply, val_main_v8_apply, val_main_v10_apply, val_main_v9_apply, Ideal.addf_def]
  unfold Cert.Attn.proj
  simp only [lidx_v8, ridx_v8, bidx_v10]

/-! ## The scores -/

theorem lidx_v12 (b : Fin 8) (i j : Fin 2048) (k : Fin 1024) : lidx_main_v12 (ix3 b i j) k = ix3 b i k :=
  funext fun a => Fin.ext (by match a with | ⟨0, _⟩ => rfl | ⟨1, _⟩ => rfl | ⟨2, _⟩ => rfl)
theorem ridx_v12 (b : Fin 8) (i j : Fin 2048) (k : Fin 1024) : ridx_main_v12 (ix3 b i j) k = ix3 b j k :=
  funext fun a => Fin.ext (by match a with | ⟨0, _⟩ => rfl | ⟨1, _⟩ => rfl | ⟨2, _⟩ => rfl)

/-- A score: the contraction of a query row with a key row, divided by `32`. -/
theorem score_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    val_main_v14 (F := Ideal) x0 x1 x2 x3 x4 (ix3 b i j) = Cert.Attn.score (Cert.Attn.proj x0 x1 x2) (Cert.Attn.proj x0 x3 x4) b i j := by
  rw [val_main_v14_apply, val_main_v12_apply, val_main_v13_apply, val_main_cst_apply, Ideal.hostDivf_def, Ideal.ofBits_def]
  unfold Cert.Attn.score
  simp only [lidx_v12, ridx_v12, q_apply, k_apply]

/-! ## The row maximum -/

/-- The pattern `0xFF800000` denotes `-∞`, the least extended real. -/
theorem ninf_eq_bot : Ideal.ofBits .f32 0xFF800000#32 = (⊥ : EReal) := by simp [Ideal.ofBits, Ideal.ieee]

theorem ninf_le (y : EReal) : Ideal.ofBits .f32 0xFF800000#32 ≤ y := by rw [ninf_eq_bot]; exact bot_le

/-- The row maximum: the host's fold from `-∞` along the key axis, then a maximum with `-∞` that changes nothing. -/
theorem max_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i : Fin 2048) :
    val_main_v17 (F := Ideal) x0 x1 x2 x3 x4 (ix2 b i)
      = Cert.Attn.rowMax (fun j => Cert.Attn.score (Cert.Attn.proj x0 x1 x2) (Cert.Attn.proj x0 x3 x4) b i j) := by
  rw [val_main_v17_apply, val_main_v16_apply, val_main_cst_1_apply, Ideal.maximumf_def, Ideal.ofBits_def]
  have h15 : val_main_v15 (F := Ideal) x0 x1 x2 x3 x4 (ix2 b i)
      = Cert.Attn.rowMax (fun j => val_main_v14 (F := Ideal) x0 x1 x2 x3 x4 (ix3 b i j)) := by
    unfold val_main_v15 val_main_cst_0
    generalize val_main_v14 (F := Ideal) x0 x1 x2 x3 x4 = z
    exact Cert.Lib.RowMax3.hostLastMax_apply z reducesTo_S8x2048x2048_S8x2048_d2 (by decide) h_S_ b i
  rw [h15, max_eq_right (ninf_le _)]
  simp only [score_apply]

/-! ## The weights -/

theorem midx_v19 (b : Fin 8) (i j : Fin 2048) : idx_main_v18 (idx_main_v19 (ix3 b i j)) = ix2 b i :=
  funext fun a => Fin.ext (by match a with | ⟨0, _⟩ => rfl | ⟨1, _⟩ => rfl)
theorem didx_v24 (b : Fin 8) (i j : Fin 2048) : idx_main_v23 (idx_main_v24 (ix3 b i j)) = ix2 b i :=
  funext fun a => Fin.ext (by match a with | ⟨0, _⟩ => rfl | ⟨1, _⟩ => rfl)
theorem sidx_v22 (b : Fin 8) (i k : Fin 2048) : idx_main_v22 (ix2 b i) k = ix3 b i k :=
  funext fun a => Fin.ext (by match a with | ⟨0, _⟩ => rfl | ⟨1, _⟩ => rfl | ⟨2, _⟩ => rfl)

/-- The exponential of a score less its row's maximum. -/
theorem e_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    val_main_v21 (F := Ideal) x0 x1 x2 x3 x4 (ix3 b i j)
      = Ideal.exp (Cert.Attn.score (Cert.Attn.proj x0 x1 x2) (Cert.Attn.proj x0 x3 x4) b i j
          - Cert.Attn.rowMax (fun j' => Cert.Attn.score (Cert.Attn.proj x0 x1 x2) (Cert.Attn.proj x0 x3 x4) b i j')) := by
  rw [val_main_v21_apply, val_main_v20_apply, val_main_v19_apply, val_main_v18_apply, Ideal.hostUnary_exp_def, Ideal.subf_def,
    midx_v19, max_apply, score_apply]

/-- The row's sum of exponentials, taken from `0`. -/
theorem l_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i : Fin 2048) :
    val_main_v22 (F := Ideal) x0 x1 x2 x3 x4 (ix2 b i)
      = ∑ k : Fin 2048, Ideal.exp (Cert.Attn.score (Cert.Attn.proj x0 x1 x2) (Cert.Attn.proj x0 x3 x4) b i k
          - Cert.Attn.rowMax (fun j' => Cert.Attn.score (Cert.Attn.proj x0 x1 x2) (Cert.Attn.proj x0 x3 x4) b i j')) := by
  rw [val_main_v22_apply, val_main_cst_2_apply, Ideal.ofBits_def, Ideal.ofBits_zero_f32, zero_add]
  simp only [sidx_v22, e_apply]

/-- A weight: the exponential divided by the row's sum. -/
theorem p_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (i j : Fin 2048) :
    val_main_v25 (F := Ideal) x0 x1 x2 x3 x4 (ix3 b i j)
      = Cert.Attn.softRow (fun j' => Cert.Attn.score (Cert.Attn.proj x0 x1 x2) (Cert.Attn.proj x0 x3 x4) b i j') j := by
  rw [val_main_v25_apply, val_main_v24_apply, val_main_v23_apply, Ideal.hostDivf_def, didx_v24, e_apply, l_apply]
  rfl

/-! ## The result -/

theorem lidx_v26 (b : Fin 8) (i : Fin 2048) (h : Fin 1024) (k : Fin 2048) : lidx_main_v26 (ix3 b i h) k = ix3 b i k :=
  funext fun a => Fin.ext (by match a with | ⟨0, _⟩ => rfl | ⟨1, _⟩ => rfl | ⟨2, _⟩ => rfl)
theorem ridx_v26 (b : Fin 8) (i : Fin 2048) (h : Fin 1024) (k : Fin 2048) : ridx_main_v26 (ix3 b i h) k = ix3 b k h :=
  funext fun a => Fin.ext (by match a with | ⟨0, _⟩ => rfl | ⟨1, _⟩ => rfl | ⟨2, _⟩ => rfl)

/-- An entry of the result: the row of weights contracted with the values' column. -/
theorem out_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (b : Fin 8) (i : Fin 2048) (h : Fin 1024) :
    val_main_v26 (F := Ideal) x0 x1 x2 x3 x4 x5 x6 (ix3 b i h) = Cert.Attn.attn (Cert.Attn.proj x0 x1 x2) (Cert.Attn.proj x0 x3 x4) (Cert.Attn.proj x0 x5 x6) b i h := by
  rw [val_main_v26_apply]
  unfold Cert.Attn.attn
  simp only [lidx_v26, ridx_v26, p_apply, v_apply]

/-- The reference's function of its seven arguments is the specification's. -/
theorem val_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v26 (F := Ideal) x0 x1 x2 x3 x4 x5 x6 = Cert.Attn.out x0 x1 x2 x3 x4 x5 x6 := by
  funext idx
  obtain ⟨b, i, h, rfl⟩ : ∃ (b : Fin 8) (i : Fin 2048) (h : Fin 1024), idx = ix3 b i h := ⟨idx 0, idx 1, idx 2, eq_ix3 idx⟩
  rw [Cert.Attn.out_ix3, out_apply]

/-- The reference run's result term, at the extended reals, is the specification of the arguments' launch contents. -/
theorem result_eq (m : (ℓ : Loc nD τ sig) → Buf (Elt Ideal) ℓ) (c : Dev nD) :
    Cert.ReferenceIdeal.Value.res_main_v26 (F := Ideal) m c
      = Cert.Attn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) :=
  (val_main_v26_eq (F := Ideal) m c).trans (val_eq _ _ _ _ _ _ _)

end Cert.ReferenceIdeal.RefValue

end
-- ==== Proof.Finite.lean ====
/-
  From the precondition to "every argument entry is a real number".

  The precondition is one word, all ones: the conjunction, argument by argument, of "every entry's absolute value is
  below `+∞`". A conjunction of words that is `1` has every conjunct `1`; a reduction by `and` over all axes that is `1`
  had a `1` at every entry; and an extended real whose absolute value `max x (−x)` is below `+∞` is neither infinity,
  so it is a real number.
-/
import proofs.«125617_j48481590837426_2_alg».proof.Proof.Gen.Pre_finite_inputs
import proofs.«125617_j48481590837426_2_alg».proof.Defs
import proofs.«125617_j48481590837426_2_alg».proof.Proof.LibAggLinear
import Idealize.ShloMosaic.Lib.ReduceAll
import Idealize.ShloMosaic.Lib.ValueIdx
import Idealize.ShloMosaic.PureOps.Ideal.Laws

noncomputable section

namespace Cert.KernelIdeal.Finite

open Idealize.ShloMosaic Idealize.ShloMosaic.TcCoe Idealize.SL.Sem Cert.Lib.AggLinear

/-- The shape with no axes has one index. -/
instance subsingleton_scalar_idx : Subsingleton Cert.Pre_finite_inputs.S_.Idx := ⟨fun a b => funext fun d => d.elim0⟩

/-- The pattern `0x7F800000` denotes `+∞`, the greatest extended real. -/
theorem pinf_eq_top : Ideal.ofBits .f32 0x7F800000#32 = (⊤ : EReal) := by simp [Ideal.ofBits, Ideal.ieee]

/-- An extended real whose absolute value compares below `+∞` is a real number. -/
theorem isReal_of_abs_lt (x : EReal)
    (h : Ideal.cmp .olt (max x (-x)) (Ideal.ofBits .f32 0x7F800000#32) = 1#1) : IsReal x := by
  rw [pinf_eq_top] at h
  have hlt : max x (-x) < (⊤ : EReal) := by
    by_contra hn
    simp only [Ideal.cmp, decide_eq_false hn] at h
    exact absurd h (by decide)
  induction x using EReal.rec with
  | bot => simp at hlt
  | top => simp at hlt
  | coe r => exact ⟨r, rfl⟩

/-- "All entries finite" over an array of any shape: if the reduction by `and` of the entrywise comparison is `1`,
    every entry is real. -/
theorem real_of_all {s : Shape} (a : FVec Ideal s .f32) (hb : Cert.Pre_finite_inputs.S_.BroadcastsInDim s (![] : Fin 0 → Fin s.rank))
    (axes : List (Fin s.rank)) (hr : s.ReducesTo axes Cert.Pre_finite_inputs.S_) (hu : 0 < Cert.Pre_finite_inputs.S_.numel)
    (e : Host.reduce IntOp.andi (cmpf .olt (Host.absf a)
          (broadcastInDim s ![] hb (constant (F := Ideal) Cert.Pre_finite_inputs.S_ .f32 0x7F800000#32)))
        (constantI Cert.Pre_finite_inputs.S_ 1 1#1) hr hu ValueIdx.ix0 = 1#1) (i : s.Idx) : IsReal (a i) :=
  isReal_of_abs_lt (a i) (Host.reduce_andi_all _ _ hr hu ValueIdx.ix0 e i)

/-- The precondition's function, all ones, makes every entry of its seven arguments real. -/
theorem real_of_fn [Cert.Pre_finite_inputs.Facts] (a0 : FVec Ideal Cert.Pre_finite_inputs.S8x2048x1024 .f32) (a1 : FVec Ideal Cert.Pre_finite_inputs.S1024x1024 .f32)
    (a2 : FVec Ideal Cert.Pre_finite_inputs.S1024 .f32) (a3 : FVec Ideal Cert.Pre_finite_inputs.S1024x1024 .f32) (a4 : FVec Ideal Cert.Pre_finite_inputs.S1024 .f32)
    (a5 : FVec Ideal Cert.Pre_finite_inputs.S1024x1024 .f32) (a6 : FVec Ideal Cert.Pre_finite_inputs.S1024 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6⟩

/-- Under the kernel's precondition every entry of every argument array is a real number. -/
theorem real_args [Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg0)) i)) ∧ (∀ i, IsReal ((m ((c.tc : Thread Cert.KernelIdeal.nD Cert.KernelIdeal.τ).loc Cert.KernelIdeal.main_arg1)) i)) ∧ (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg3)) i)) ∧ (∀ i, IsReal ((m ((c.tc : Thread Cert.KernelIdeal.nD Cert.KernelIdeal.τ).loc Cert.KernelIdeal.main_arg4)) i)) ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i)) :=
  real_of_fn _ _ _ _ _ _ _ (hpre c)

end Cert.KernelIdeal.Finite

end
-- ==== Proof.lean ====
/-
  The certificate of a single-head self-attention computed by two kernel regions against its plain reference.

  The kernel joins the three weight matrices and the three bias vectors, projects the `[16384, 1024]` reshaped input
  through the joined weights in sixteen row blocks (one product, its column thirds written out as query, key and value),
  reshapes them back to `[8, 2048, 1024]`, and for each batch and each block of 512 query rows forms the scores against
  all keys with the query scaled by `2⁻⁵`, subtracts the row maximum, exponentiates, divides by the row sum and
  multiplies by the values. The reference computes the three projections separately, divides the scores by `32`, and
  applies the same row-wise weights. On the extended reals roundings are the identity, a product computed block of
  rows by block of rows is the product, and on real data the scale moves across the contraction; so both programs end at
  one function of the arguments (`Cert.Attn.out`). The precondition (every input finite) is what makes the data real.

  The three frames: each kernel program's run is the run of its four segments (two stretches of host operations and two
  pipelined regions, every grid point's body executed symbolically), which never writes an argument; the reference's is
  its run of host operations. The kernel's idealization rewrote nothing, so it is preserved trivially.
-/
import proofs.«125617_j48481590837426_2_alg».proof.Defs
import proofs.«125617_j48481590837426_2_alg».proof.Proof.Gen.Kernel
import proofs.«125617_j48481590837426_2_alg».proof.Proof.Gen.KernelIdeal
import proofs.«125617_j48481590837426_2_alg».proof.Proof.Gen.ReferenceIdeal
import proofs.«125617_j48481590837426_2_alg».proof.Proof.Gen.Pre_finite_inputs
import proofs.«125617_j48481590837426_2_alg».proof.Proof.Gen.ReferenceIdeal.Run
import proofs.«125617_j48481590837426_2_alg».proof.Proof.KRun
import proofs.«125617_j48481590837426_2_alg».proof.Proof.Run
import proofs.«125617_j48481590837426_2_alg».proof.Proof.KernelValue
import proofs.«125617_j48481590837426_2_alg».proof.Proof.RefValue
import proofs.«125617_j48481590837426_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Frm.frame m ρ

/-- So does the idealized kernel. -/
theorem frame_kernelIdeal : Cert.frame_KernelIdeal := fun m ρ _ => Cert.KernelIdeal.Frm.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the attention of the arguments in their result array. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Frm.run_all (F := Ideal) m ρ)
    obtain ⟨h0, h1, h2, h3, h4, h5, h6⟩ := Cert.KernelIdeal.Finite.real_args m hpre c
    exact ⟨(h c _ (Cert.KernelIdeal.Frm.mem_uc Cert.KernelIdeal.main_v9 (by decide))).trans
        (Cert.KernelIdeal.KernelValue.result_eq m c h0 h1 h2 h3 h4),
      (h c _ (Cert.KernelIdeal.Frm.mem_uc Cert.KernelIdeal.main_arg0 (by decide))).trans (Cert.KernelIdeal.Frm.W4_main_arg0 m c),
      (h c _ (Cert.KernelIdeal.Frm.mem_uc Cert.KernelIdeal.main_arg1 (by decide))).trans (Cert.KernelIdeal.Frm.W4_main_arg1 m c),
      (h c _ (Cert.KernelIdeal.Frm.mem_uc Cert.KernelIdeal.main_arg2 (by decide))).trans (Cert.KernelIdeal.Frm.W4_main_arg2 m c),
      (h c _ (Cert.KernelIdeal.Frm.mem_uc Cert.KernelIdeal.main_arg3 (by decide))).trans (Cert.KernelIdeal.Frm.W4_main_arg3 m c),
      (h c _ (Cert.KernelIdeal.Frm.mem_uc Cert.KernelIdeal.main_arg4 (by decide))).trans (Cert.KernelIdeal.Frm.W4_main_arg4 m c),
      (h c _ (Cert.KernelIdeal.Frm.mem_uc Cert.KernelIdeal.main_arg5 (by decide))).trans (Cert.KernelIdeal.Frm.W4_main_arg5 m c),
      (h c _ (Cert.KernelIdeal.Frm.mem_uc Cert.KernelIdeal.main_arg6 (by decide))).trans (Cert.KernelIdeal.Frm.W4_main_arg6 m c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.RefValue.result_eq m' c, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
